-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384 : Shape := ⟨1, ![16384]⟩
abbrev S1000x1000 : Shape := ⟨2, ![1000, 1000]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x1000 : S_.BroadcastsInDim S1000x1000 (![] : Fin 0 → Fin S1000x1000.rank)
  reducesTo_S1000x1000_S_d0_1 : S1000x1000.ReducesTo [0, 1] S_

variable [Facts]

def fn {F : FTy → Type} [FloatOps F] (main_arg0 : FVec F S16384x1000 .f32) (main_arg1 : IVec S16384 32) (main_arg2 : FVec F S1000x1000 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x1000 .f32 := Host.absf main_arg2
  let main_cst_0 : FVec F S_ .f32 := constant S_ .f32 0x7F800000#32
  let main_v5 : FVec F S1000x1000 .f32 := broadcastInDim S1000x1000 ![] bcast_S_S1000x1000 main_cst_0
  let main_v6 : IVec S1000x1000 1 := cmpf .olt main_v4 main_v5
  let main_c_1 : IVec S_ 1 := constantI S_ 1 1#1
  let main_v7 : IVec S_ 1 := (fun x v => Host.reduce IntOp.andi x v reducesTo_S1000x1000_S_d0_1 h_S_) main_v6 main_c_1
  let main_v8 : IVec S_ 1 := andi main_v3 main_v7
  main_v8
-- ==== Kernel.lean ====
abbrev S16384x1000 : Shape := ⟨2, ![16384, 1000]⟩
abbrev S16384 : Shape := ⟨1, ![16384]⟩
abbrev S1000x1000 : Shape := ⟨2, ![1000, 1000]⟩
abbrev S_ : Shape := ⟨0, ![]⟩
abbrev S1000 : Shape := ⟨1, ![1000]⟩
abbrev S1000x1 : Shape := ⟨2, ![1000, 1]⟩
abbrev S1024x1 : Shape := ⟨2, ![1024, 1]⟩
abbrev S1x1024 : Shape := ⟨2, ![1, 1024]⟩
abbrev S16384x1024 : Shape := ⟨2, ![16384, 1024]⟩
abbrev S1024x1024 : Shape := ⟨2, ![1024, 1024]⟩
abbrev S16384x1 : Shape := ⟨2, ![16384, 1]⟩
abbrev S512x1024 : Shape := ⟨2, ![512, 1024]⟩
abbrev S512x1 : Shape := ⟨2, ![512, 1]⟩
abbrev S512 : Shape := ⟨1, ![512]⟩

abbrev nBuf : Space → Nat
  | .hbm => 24
  | .vmem => 8
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x1000, .f32⟩
  | .hbm, ⟨3, _⟩ => ⟨S_, .f32⟩
  | .hbm, ⟨4, _⟩ => ⟨S1000, .f32⟩
  | .hbm, ⟨5, _⟩ => ⟨S1000x1, .f32⟩
  | .hbm, ⟨6, _⟩ => ⟨S_, .i32⟩
  | .hbm, ⟨7, _⟩ => ⟨S_, .f32⟩
  | .hbm, ⟨8, _⟩ => ⟨S1024x1, .f32⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S16384x1024, .f32⟩
  | .hbm, ⟨13, _⟩ => ⟨S16384x1024, .bf16⟩
  | .hbm, ⟨14, _⟩ => ⟨S_, .i32⟩
  | .hbm, ⟨15, _⟩ => ⟨S_, .f32⟩
  | .hbm, ⟨16, _⟩ => ⟨S1024x1024, .f32⟩
  | .hbm, ⟨17, _⟩ => ⟨S1024x1024, .bf16⟩
  | .hbm, ⟨18, _⟩ => ⟨S16384x1, .i32⟩
  | .hbm, ⟨19, _⟩ => ⟨S16384x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S1000x1000_S1000_d1 : S1000x1000.ReducesTo [1] S1000
  h_S_ : 0 < S_.numel
  bcast_S1000_S1000x1_0 : S1000.BroadcastsInDim S1000x1 (![0] : Fin 1 → Fin S1000x1.rank)
  pads_S1000x1_S1024x1_0240_000 : S1000x1.Pads (![0, 0] : Fin 2 → Nat) ![24, 0] ![0, 0] S1024x1
  shapeCasts_S1024x1_S1x1024 : S1024x1.ShapeCasts S1x1024
  pads_S16384x1000_S16384x1024_000_0240 : S16384x1000.Pads (![0, 0] : Fin 2 → Nat) ![0, 24] ![0, 0] S16384x1024
  bitsLt_bf16_f32 : FTy.bits .bf16 < FTy.bits .f32
  pads_S1000x1000_S1024x1024_0240_0240 : S1000x1000.Pads (![0, 0] : Fin 2 → Nat) ![24, 24] ![0, 0] S1024x1024
  shapeCasts_S16384_S16384x1 : S16384.ShapeCasts S16384x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  iota_S512x1024_d1_w32 : S512x1024.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  natLt_1_32 : 1 < 32
  reduces_S512x1024_S512 : S512x1024.Reduces [1] S512
  shapeCasts_S512_S512x1 : S512.ShapeCasts S512x1
  reducesTo_S16384x1_S_d0_1 : S16384x1.ReducesTo [0, 1] S_
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .bf16 = 32 ∨ (Rect.block (s := S16384x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .i32 = 32 ∨ (Rect.block (s := S16384x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S16384 : Shape := ⟨1, ![16384]⟩
abbrev S1000x1000 : Shape := ⟨2, ![1000, 1000]⟩
abbrev S16384x1 : Shape := ⟨2, ![16384, 1]⟩
abbrev S1x1000 : Shape := ⟨2, ![1, 1000]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x1000, .f32⟩
  | .hbm, ⟨3, _⟩ => ⟨S16384x1, .i32⟩
  | .hbm, ⟨4, _⟩ => ⟨S1x1000, .i32⟩
  | .hbm, ⟨5, _⟩ => ⟨S16384x1000, .i32⟩
  | .hbm, ⟨6, _⟩ => ⟨S16384x1000, .i32⟩
  | .hbm, ⟨7, _⟩ => ⟨S16384x1000, .i1⟩
  | .hbm, ⟨8, _⟩ => ⟨S16384x1000, .f32⟩
  | .hbm, ⟨9, _⟩ => ⟨S_, .f32⟩
  | .hbm, ⟨10, _⟩ => ⟨S16384x1000, .f32⟩
  | .hbm, ⟨11, _⟩ => ⟨S16384x1000, .f32⟩
  | .hbm, ⟨12, _⟩ => ⟨S_, .f32⟩
  | .hbm, ⟨13, _⟩ => ⟨S16384x1000, .f32⟩
  | .hbm, ⟨14, _⟩ => ⟨S16384x1000, .f32⟩
  | .hbm, ⟨15, _⟩ => ⟨S16384x1000, .f32⟩
  | .hbm, ⟨16, _⟩ => ⟨S_, .f32⟩
  | .hbm, ⟨17, _⟩ => ⟨S16384x1000, .f32⟩
  | .hbm, ⟨18, _⟩ => ⟨S16384x1000, .f32⟩
  | .hbm, ⟨19, _⟩ => ⟨S_, .f32⟩
  | .hbm, ⟨20, _⟩ => ⟨S1000x1000, .f32⟩
  | .hbm, ⟨21, _⟩ => ⟨S1000x1000, .f32⟩
  | .hbm, ⟨22, _⟩ => ⟨S16384x1000, .f32⟩
  | .hbm, ⟨23, _⟩ => ⟨S16384x1000, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384x1, .f32⟩
  | .hbm, ⟨30, _⟩ => ⟨S16384x1000, .f32⟩
  | .hbm, ⟨31, _⟩ => ⟨S16384x1000, .f32⟩
  | .hbm, ⟨32, _⟩ => ⟨S16384x1000, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1, .f32⟩
  | .hbm, ⟨37, _⟩ => ⟨S16384x1000, .f32⟩
  | .hbm, ⟨38, _⟩ => ⟨S16384x1000, .f32⟩
  | .hbm, ⟨39, _⟩ => ⟨S16384x1000, .f32⟩
  | .hbm, ⟨40, _⟩ => ⟨S16384x1000, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_cst : Ref sig .tc := ⟨.hbm, 24, rfl⟩
abbrev main_call1_v0 : Ref sig .tc := ⟨.hbm, 25, rfl⟩
abbrev main_call1_cst_0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_cst_1 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_3 : Ref sig .tc := ⟨.hbm, 41, rfl⟩
abbrev main_v15 : Ref sig .tc := ⟨.hbm, 42, rfl⟩
abbrev main_cst_4 : Ref sig .tc := ⟨.hbm, 43, rfl⟩
abbrev main_v16 : Ref sig .tc := ⟨.hbm, 44, rfl⟩
abbrev main_cst_5 : Ref sig .tc := ⟨.hbm, 45, rfl⟩
abbrev main_v17 : Ref sig .tc := ⟨.hbm, 46, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  bcast_S_S1000x1000 : S_.BroadcastsInDim S1000x1000 (![] : Fin 0 → Fin S1000x1000.rank)
  reducesTo_S16384x1000_S16384_d1 : S16384x1000.ReducesTo [1] S16384
  h_S_ : 0 < S_.numel
  bcast_S_S16384 : S_.BroadcastsInDim S16384 (![] : Fin 0 → Fin S16384.rank)
  reducesTo_S16384_S_d0 : S16384.ReducesTo [0] S_
  dot_S16384x1000_S1000x1000_S16384x1000_1_1_0_0_n_n_wf : DotDims.WF S16384x1000 S1000x1000 S16384x1000 [1] [1] [0] [0] [] []

variable [Facts₀]

def dot_S16384x1000_S1000x1000_S16384x1000_1_1_0_0_n_n : DotDims S16384x1000 S1000x1000 S16384x1000 where
  lhsContracting := [1]
  rhsContracting := [1]
  lhsNonContracting := [0]
  rhsNonContracting := [0]
  lhsBatch := []
  rhsBatch := []
  wf := dot_S16384x1000_S1000x1000_S16384x1000_1_1_0_0_n_n_wf

class Facts : Prop extends Facts₀ where

variable [Facts]
-- ==== Proof.Spec.lean ====
/-
  The coding loss, row by row, as one function of the arguments at the extended reals.

  A row of the input is a vector `x` of 1000 features, the code book a 1000 × 1000 matrix `C` (class × feature), a
  label `ℓ` a 32-bit integer. Every class `n` gets a logit; the row's loss is the label-smoothed cross entropy of
  the logits' log-softmax, `∑ n, -(w n) · ((s n - M) - log ∑ n', exp (s n' - M))` with `M` the largest logit, and the
  result the mean of the 16384 rows' losses. The two programs differ in the logit only:

  * `simR`: the Hamming similarity `∑ d, x d · C n d + ∑ d, (1 - x d) · (1 - C n d)`;
  * `simK`: `2 · ∑ d, x d · C n d - ∑ d, C n d`.

  For real `x` and `C`, `simR x C n = simK x C n + (1000 - ∑ d, x d)`: the two differ by a number that does not depend on
  the class, and the log-softmax of a row of real logits does not change when one real number is added to all of them
  (`(s + K) - max (s + K) = s - max s`). That law needs finiteness (`∞ - ∞` is not `0`), which is where the certificate's
  precondition is used (`lossK_eq_lossR`, in LogSoftmaxShift.lean).
-/
import Idealize.ShloMosaic.PureOps.Ideal

noncomputable section

namespace Cert.CodingLoss

open Idealize.ShloMosaic

/-- The smoothed target of class `n` for the label `ℓ`: `[n = ℓ] · f32(0.9) + f32(1e-4)`. -/
def weight (ℓ : BitVec 32) (n : Fin 1000) : EReal :=
  (if ℓ = BitVec.ofNat 32 n.val then (1 : EReal) else 0) * Ideal.ofBits .f32 0x3F666666#32 + Ideal.ofBits .f32 0x38D1B717#32

/-- The logit without the class-independent part: twice the inner product less the code word's sum. -/
def simK (x : Fin 1000 → EReal) (C : Fin 1000 → Fin 1000 → EReal) (n : Fin 1000) : EReal :=
  Ideal.ofBits .f32 0x40000000#32 * (∑ d : Fin 1000, x d * C n d) - ∑ d : Fin 1000, C n d

/-- The Hamming similarity of the row and code word `n`. -/
def simR (x : Fin 1000 → EReal) (C : Fin 1000 → Fin 1000 → EReal) (n : Fin 1000) : EReal :=
  (∑ d : Fin 1000, x d * C n d)
    + ∑ d : Fin 1000, (Ideal.ofBits .f32 0x3F800000#32 - x d) * (Ideal.ofBits .f32 0x3F800000#32 - C n d)

/-- The weighted cross entropy of the log-softmax of the logits `s`, the shift the largest logit. -/
def rowLoss (w s : Fin 1000 → EReal) : EReal :=
  ∑ n : Fin 1000, (-(w n)) * ((s n - Finset.univ.sup s) - Ideal.log (∑ n' : Fin 1000, Ideal.exp (s n' - Finset.univ.sup s)))

/-- The mean over the 16384 rows. -/
def total (f : Fin 16384 → EReal) : EReal :=
  Ideal.div (∑ b : Fin 16384, f b) (Ideal.ofBits .f32 0x46800000#32)

/-- The loss with the logits `simK`. -/
def lossK (X : Fin 16384 → Fin 1000 → EReal) (L : Fin 16384 → BitVec 32) (C : Fin 1000 → Fin 1000 → EReal) : EReal :=
  total fun b => rowLoss (weight (L b)) (simK (X b) C)

/-- The loss with the logits `simR`. -/
def lossR (X : Fin 16384 → Fin 1000 → EReal) (L : Fin 16384 → BitVec 32) (C : Fin 1000 → Fin 1000 → EReal) : EReal :=
  total fun b => rowLoss (weight (L b)) (simR (X b) C)

end Cert.CodingLoss

end
-- ==== Proof.PaddedLanes.lean ====
/-
  A row of 1000 classes carried on 1024 lanes.

  The kernel keeps each row's 1000 logits on 1024 lanes: the 24 extra lanes hold `-∞` (`⊥`) in the logits and `0` in the
  weights. At the extended reals such a lane is invisible: it does not move the maximum (`max x ⊥ = x`), adds
  `exp ⊥ = 0` to the softmax denominator, and its term of the weighted sum is `0 · ⊥ = 0`. So the sums and the maximum
  over the 1024 lanes are the sums and the maximum over the 1000 classes: `paddedRow_eq_rowLoss`.
-/
import proofs.«170069_j26749056320134_1_alg».proof.Proof.Spec
import Mathlib.Data.Finset.Fold

noncomputable section

namespace Cert.CodingLoss

open Idealize.ShloMosaic

/-- A row of 1000 entries on 1024 lanes, the 24 extra lanes holding `z`. -/
def padLanes (z : EReal) (f : Fin 1000 → EReal) (n : Fin 1024) : EReal :=
  if h : n.val < 1000 then f ⟨n.val, h⟩ else z

theorem padLanes_of_lt (z : EReal) (f : Fin 1000 → EReal) (n : Fin 1024) (h : n.val < 1000) :
    padLanes z f n = f ⟨n.val, h⟩ := dif_pos h

theorem padLanes_of_ge (z : EReal) (f : Fin 1000 → EReal) (n : Fin 1024) (h : 1000 ≤ n.val) :
    padLanes z f n = z := dif_neg (by omega)

/-- A sum over the 1024 lanes whose terms vanish on the 24 extra lanes is the sum over the 1000 classes. -/
theorem sum_lanes (g : Fin 1024 → EReal) (hg : ∀ n : Fin 1024, 1000 ≤ n.val → g n = 0) :
    ∑ n : Fin 1024, g n = ∑ k : Fin 1000, g ⟨k.val, by omega⟩ := by
  have h := Fin.sum_univ_add (M := EReal) (a := 1000) (b := 24) g
  refine h.trans ?_
  have h2 : ∑ i : Fin 24, g (Fin.natAdd 1000 i) = 0 :=
    Finset.sum_eq_zero fun i _ => hg _ (by show 1000 ≤ 1000 + i.val; omega)
  rw [h2, add_zero]
  rfl

/-- The fold of `max` from `⊥` over a finite type is the supremum. -/
theorem fold_max_bot_eq_sup {ι : Type} [Fintype ι] (f : ι → EReal) :
    (Finset.univ : Finset ι).fold max ⊥ f = Finset.univ.sup f := by
  refine le_antisymm ?_ ?_
  · exact (Finset.fold_max_le _).mpr ⟨bot_le, fun x hx => Finset.le_sup hx⟩
  · exact Finset.sup_le fun x hx => (Finset.le_fold_max _).mpr (Or.inr ⟨x, hx, le_rfl⟩)

/-- Lanes holding `⊥` do not move the maximum. -/
theorem sup_padLanes_bot (s : Fin 1000 → EReal) :
    Finset.univ.sup (padLanes ⊥ s) = Finset.univ.sup s := by
  refine le_antisymm ?_ ?_
  · refine Finset.sup_le fun n _ => ?_
    by_cases h : n.val < 1000
    · rw [padLanes_of_lt _ _ _ h]; exact Finset.le_sup (Finset.mem_univ _)
    · rw [padLanes_of_ge _ _ _ (by omega)]; exact bot_le
  · refine Finset.sup_le fun k _ => ?_
    have e : s k = padLanes ⊥ s ⟨k.val, by omega⟩ := (padLanes_of_lt ⊥ s ⟨k.val, by omega⟩ k.isLt).symm
    rw [e]; exact Finset.le_sup (Finset.mem_univ _)

/-- The row's loss computed on 1024 lanes — logits padded with `⊥`, weights with `0`, the negated weight spelt
    `0 - w`, the shift the fold of `max` from `⊥` over the lanes — is the row's loss over its 1000 classes. -/
theorem paddedRow_eq_rowLoss (w s : Fin 1000 → EReal) :
    ∑ n : Fin 1024, (0 - padLanes 0 w n)
        * ((padLanes ⊥ s n - (Finset.univ : Finset (Fin 1024)).fold max ⊥ (padLanes ⊥ s))
            - Ideal.log (∑ n' : Fin 1024, Ideal.exp (padLanes ⊥ s n' - (Finset.univ : Finset (Fin 1024)).fold max ⊥ (padLanes ⊥ s))))
      = rowLoss w s := by
  rw [fold_max_bot_eq_sup, sup_padLanes_bot]
  have hden : ∑ n' : Fin 1024, Ideal.exp (padLanes ⊥ s n' - Finset.univ.sup s)
      = ∑ k : Fin 1000, Ideal.exp (s k - Finset.univ.sup s) := by
    rw [sum_lanes _ fun n hn => by rw [padLanes_of_ge _ _ _ hn, EReal.bot_sub]; rfl]
    exact Finset.sum_congr rfl fun k _ => by rw [padLanes_of_lt _ _ _ k.isLt]
  rw [hden]
  rw [sum_lanes _ fun n hn => by
    rw [padLanes_of_ge _ _ _ hn, sub_eq_add_neg, zero_add, neg_zero, zero_mul]]
  unfold rowLoss
  refine Finset.sum_congr rfl fun k _ => ?_
  rw [padLanes_of_lt _ _ _ k.isLt, padLanes_of_lt _ _ _ k.isLt, sub_eq_add_neg (0 : EReal), zero_add]

end Cert.CodingLoss

end
-- ==== Proof.KernelRow.lean ====
/-
  One row of one block: what the kernel body stores at row `r` of its output block, as a function of the four blocks it
  loads — 512 rows of inputs on 1024 lanes (`v0`), the code book on 1024 × 1024 (`v2`), the code words' sums on one row of
  1024 lanes (`v7`) and 512 labels (`v16`).

  At lane `n` of row `r` the masked logit is `2 · ∑ d, v0 (r, d) · v2 (n, d) - v7 (0, n)` for `n < 1000` and `-∞` on the 24
  extra lanes; the weight is `[n = label] · 0.9 + 1e-4` for `n < 1000` and `0` on the extra lanes; the stored value is the
  sum over the 1024 lanes of `(0 - weight) · ((logit - max) - log ∑ exp (logit - max))`, the maximum and the sum taken
  along the row. With PaddedLanes.lean that is `rowLoss` of the row's 1000 weights and logits.
-/
import proofs.«170069_j26749056320134_1_alg».proof.Proof.Gen.KernelIdeal.Skeleton
import proofs.«170069_j26749056320134_1_alg».proof.Proof.PaddedLanes
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws
import Idealize.ShloMosaic.PureOps.IdealRules

noncomputable section

namespace Cert.KernelIdeal.Row

open Cert.KernelIdeal Cert.KernelIdeal.Gen Idealize.ShloMosaic Idealize.ShloMosaic.ValueIdx Cert.CodingLoss

/-! ## The keepdims layout operations read at an index -/

/-- A vector of 512 row values viewed as a column: row `r` of the column is entry `r`. -/
theorem column_apply {α : Type} (x : S512.Idx → α) (h : S512.ShapeCasts S512x1) (r : Fin 512) :
    shapeCast S512x1 x h (ix2 r (0 : Fin 1)) = x (ix1 r) :=
  shapeCast_apply x h (ix2 r (0 : Fin 1)) (ix1 r) (by
    rw [Shape.rowMajor_val_one, Shape.rowMajor_val_two]
    show r.val = r.val * 1 + 0
    omega)

/-- A column broadcast along the lanes: every lane of row `r` holds the column's entry `r`. -/
theorem along_lanes_apply {α : Type} (x : S512x1.Idx → α) (h : S512x1.Broadcasts S512x1024) (r : Fin 512) (n : Fin 1024) :
    broadcastTo S512x1024 x h (ix2 r n) = x (ix2 r (0 : Fin 1)) :=
  broadcastTo_apply x h (ix2 r n) (ix2 r (0 : Fin 1)) fun a => by
    match a with
    | ⟨0, _⟩ => show r.val = if (512 : Nat) = 1 then 0 else r.val; rw [if_neg (by decide)]
    | ⟨1, _⟩ => show (0 : Nat) = if (1 : Nat) = 1 then 0 else n.val; rw [if_pos rfl]

/-! ## The two reductions along a row -/

/-- The largest entry of row `r`, as the fold of `max` from `-∞` over its 1024 lanes. -/
theorem rowmax_apply (u : FVec Ideal S512x1024 .f32) (r : Fin 512) :
    multiReduction .maximumf [1] S512 u 0xFF800000#32 reduces_S512x1024_S512 (.inl rfl) rfl (ix1 r)
      = (Finset.univ : Finset (Fin 1024)).fold max ⊥ (fun n => u (ix2 r n)) := by
  refine (Ideal.multiReduction_maximumf_single u 0xFF800000#32 reduces_S512x1024_S512 (.inl rfl) rfl (ix1 r)).trans ?_
  have hb : (FloatOps.ofBits (F := Ideal) .f32 0xFF800000#32) = (⊥ : EReal) := by
    show Ideal.ofBits .f32 0xFF800000#32 = ⊥
    simp [Ideal.ofBits, Ideal.ieee]
  have hl : (u ∘ reduces_S512x1024_S512.lift (ix1 r)) = fun n : Fin 1024 => u (ix2 r n) :=
    funext fun n => congrArg u (funext fun a => Fin.ext (by match a with | ⟨0, _⟩ => rfl | ⟨1, _⟩ => rfl))
  rw [hb, hl]
  rfl

/-- The sum of row `r` over its 1024 lanes. -/
theorem rowsum_apply (u : FVec Ideal S512x1024 .f32) (r : Fin 512) :
    multiReduction .add [1] S512 u 0x00000000#32 reduces_S512x1024_S512 (.inl rfl) rfl (ix1 r)
      = ∑ n : Fin 1024, u (ix2 r n) := by
  refine (Ideal.multiReduction_add_single u 0x00000000#32 reduces_S512x1024_S512 (.inl rfl) rfl (ix1 r)).trans ?_
  exact Finset.sum_congr rfl fun n _ =>
    congrArg u (funext fun a => Fin.ext (by match a with | ⟨0, _⟩ => rfl | ⟨1, _⟩ => rfl))

/-! ## The log-softmax of the masked logits -/

/-- The log-probabilities from the masked logits `u`: `(u - max) - log ∑ exp (u - max)` along each row. -/
def logProb (u : FVec Ideal S512x1024 .f32) : FVec Ideal S512x1024 .f32 :=
  have v28 : FVec Ideal S512 .f32 := multiReduction .maximumf [1] S512 u 0xFF800000#32 reduces_S512x1024_S512 (.inl rfl) rfl
  have v29 : FVec Ideal S512x1 .f32 := shapeCast S512x1 v28 shapeCasts_S512_S512x1
  have v30 : FVec Ideal S512x1024 .f32 := broadcastTo S512x1024 v29 broadcasts_S512x1_S512x1024
  have v31 : FVec Ideal S512x1024 .f32 := subf u v30
  have v32 : FVec Ideal S512x1024 .f32 := exp v31
  have v33 : FVec Ideal S512 .f32 := multiReduction .add [1] S512 v32 0x00000000#32 reduces_S512x1024_S512 (.inl rfl) rfl
  have v34 : FVec Ideal S512x1 .f32 := shapeCast S512x1 v33 shapeCasts_S512_S512x1
  have v35 : FVec Ideal S512x1024 .f32 := broadcastTo S512x1024 v29 broadcasts_S512x1_S512x1024
  have v36 : FVec Ideal S512x1024 .f32 := subf u v35
  have v37 : FVec Ideal S512x1 .f32 := log v34
  have v38 : FVec Ideal S512x1024 .f32 := broadcastTo S512x1024 v37 broadcasts_S512x1_S512x1024
  subf v36 v38

/-- The row's shift: the fold of `max` from `-∞` over the row's lanes. -/
def rowMax (u : FVec Ideal S512x1024 .f32) (r : Fin 512) : EReal :=
  (Finset.univ : Finset (Fin 1024)).fold max ⊥ (fun n => u (ix2 r n))

theorem logProb_apply (u : FVec Ideal S512x1024 .f32) (r : Fin 512) (n : Fin 1024) :
    logProb u (ix2 r n)
      = (u (ix2 r n) - rowMax u r) - Ideal.log (∑ n' : Fin 1024, Ideal.exp (u (ix2 r n') - rowMax u r)) := by
  unfold logProb rowMax
  try dsimp only
  rw [subf_apply, subf_apply, along_lanes_apply, along_lanes_apply, column_apply, rowmax_apply]
  refine congrArg (fun z => (u (ix2 r n) - (Finset.univ : Finset (Fin 1024)).fold max ⊥ (fun n => u (ix2 r n))) - z) ?_
  show Ideal.log (shapeCast S512x1 _ shapeCasts_S512_S512x1 (ix2 r (0 : Fin 1))) = _
  rw [column_apply, rowsum_apply]
  refine congrArg Ideal.log (Finset.sum_congr rfl fun n' _ => ?_)
  show Ideal.exp (subf u _ (ix2 r n')) = _
  rw [subf_apply, along_lanes_apply, column_apply, rowmax_apply]

/-! ## Which lanes are classes -/

/-- Lane `n` of the 1024 is a class exactly when `n < 1000` (the signed compare of the lane's number with 1000). -/
theorem lane_lt : ∀ n : Fin 1024,
    IntOp.cmpi .slt (BitVec.ofNat 32 n.val) 1000#32 = if n.val < 1000 then 1#1 else 0#1 := by decide +kernel

theorem valid_apply (r : Fin 512) (n : Fin 1024) : k0_pay2 (ix2 r n) = if n.val < 1000 then 1#1 else 0#1 := by
  unfold k0_pay2
  try dsimp only
  show IntOp.cmpi .slt (iota .tc S512x1024 32 [1] iota_S512x1024_d1_w32 (ix2 r n)) (1000#32) = _
  rw [iota_single_apply]
  exact lane_lt n

/-! ## The matrix product at an entry -/

/-- The product's dimension record: rows × features times classes × features, the features contracted. -/
abbrev dotRec := dot_S512x1024_S1024x1024_S512x1024_1_1_0_0_n_n

theorem lhs_row (i : S512x1024.Idx) (q : dotRec.contr.Idx) : (dotRec.lhsIdx i q 0).val = (i 0).val := by
  unfold DotDims.lhsIdx
  rw [dif_neg (show ¬(0 : Fin S512x1024.rank) ∈ dotRec.lhsBatch by decide),
    dif_pos (show (0 : Fin S512x1024.rank) ∈ dotRec.lhsNonContracting by decide)]
  rfl
theorem lhs_feature (i : S512x1024.Idx) (q : dotRec.contr.Idx) : (dotRec.lhsIdx i q 1).val = (q ⟨0, by decide⟩).val :=
  dotRec.lhsIdx_val_of_single rfl i q
theorem rhs_class (i : S512x1024.Idx) (q : dotRec.contr.Idx) : (dotRec.rhsIdx i q 0).val = (i 1).val := by
  unfold DotDims.rhsIdx
  rw [dif_neg (show ¬(0 : Fin S1024x1024.rank) ∈ dotRec.rhsBatch by decide),
    dif_pos (show (0 : Fin S1024x1024.rank) ∈ dotRec.rhsNonContracting by decide)]
  rfl
theorem rhs_feature (i : S512x1024.Idx) (q : dotRec.contr.Idx) : (dotRec.rhsIdx i q 1).val = (q ⟨0, by decide⟩).val :=
  dotRec.rhsIdx_val_of_single rfl i q

/-- Into a zero accumulator the product at (row `r`, lane `n`) is the inner product of row `r` of the left operand with
    row `n` of the right one, over the 1024 feature lanes. -/
theorem matmul_row_apply (a : FVec Ideal S512x1024 .bf16) (b : FVec Ideal S1024x1024 .bf16) (r : Fin 512) (n : Fin 1024) :
    matmul dotRec none a b (constant S512x1024 .f32 0x00000000#32) (ix2 r n) = ∑ d : Fin 1024, a (ix2 r d) * b (ix2 n d) := by
  simp only [matmul]
  rw [Ideal.matmul_constant_zero_apply, ← Equiv.sum_comp (ValueIdx.contrEquiv1 dotRec 1024 rfl rfl).symm]
  refine Finset.sum_congr rfl fun k _ => ?_
  have hk := ValueIdx.contrEquiv1_symm_val dotRec 1024 rfl rfl k
  have el : dotRec.lhsIdx (ix2 r n) ((ValueIdx.contrEquiv1 dotRec 1024 rfl rfl).symm k) = ix2 r k := funext fun x => Fin.ext (by
    match x with
    | ⟨0, _⟩ => exact lhs_row _ _
    | ⟨1, _⟩ => exact (lhs_feature _ _).trans hk)
  have er : dotRec.rhsIdx (ix2 r n) ((ValueIdx.contrEquiv1 dotRec 1024 rfl rfl).symm k) = ix2 n k := funext fun x => Fin.ext (by
    match x with
    | ⟨0, _⟩ => exact rhs_class _ _
    | ⟨1, _⟩ => exact (rhs_feature _ _).trans hk)
  rw [el, er]

/-! ## The masked logits -/

/-- The masked logits: twice the product less the code words' sums on the class lanes, `-∞` on the extra lanes. -/
def masked (v0 : FVec Ideal S512x1024 .bf16) (v2 : FVec Ideal S1024x1024 .bf16) (v7 : FVec Ideal S1x1024 .f32) : FVec Ideal S512x1024 .f32 :=
  have v1 : FVec Ideal S512x1024 .bf16 := shapeCast S512x1024 v0 shapeCasts_S512x1024_S512x1024
  have v3 : FVec Ideal S1024x1024 .bf16 := shapeCast S1024x1024 v2 shapeCasts_S1024x1024_S1024x1024
  have cst : FVec Ideal S512x1024 .f32 := constant S512x1024 .f32 0x00000000#32
  have v4 : FVec Ideal S512x1024 .f32 := matmul dotRec none v1 v3 cst
  have cst_3 : Ideal .f32 := Scalar.ofBits .f32 0x40000000#32
  have v5 : FVec Ideal S512x1024 .f32 := broadcast S512x1024 cst_3
  have v6 : FVec Ideal S512x1024 .f32 := mulf v5 v4
  have v8 : FVec Ideal S1x1024 .f32 := shapeCast S1x1024 v7 shapeCasts_S1x1024_S1x1024
  have v9 : FVec Ideal S512x1024 .f32 := broadcastTo S512x1024 v8 broadcasts_S1x1024_S512x1024
  have v10 : FVec Ideal S512x1024 .f32 := subf v6 v9
  have cst_6 : Ideal .f32 := Named.named κ "neg_big" 0xFF333332#32
  have v14 : FVec Ideal S512x1024 .f32 := broadcast S512x1024 cst_6
  select k0_pay2 v10 v14

/-- The body's log-probabilities are the log-softmax of the masked logits. -/
theorem pay4_eq (v0 : FVec Ideal S512x1024 .bf16) (v2 : FVec Ideal S1024x1024 .bf16) (v7 : FVec Ideal S1x1024 .f32) :
    k0_pay4 (F := Ideal) v0 v2 v7 = logProb (masked v0 v2 v7) := rfl

theorem masked_apply (v0 : FVec Ideal S512x1024 .bf16) (v2 : FVec Ideal S1024x1024 .bf16) (v7 : FVec Ideal S1x1024 .f32)
    (r : Fin 512) (n : Fin 1024) :
    masked v0 v2 v7 (ix2 r n)
      = if n.val < 1000 then Ideal.ofBits .f32 0x40000000#32 * (∑ d : Fin 1024, v0 (ix2 r d) * v2 (ix2 n d)) - v7 (ix2 (0 : Fin 1) n)
        else ⊥ := by
  unfold masked
  try dsimp only
  rw [select_apply, valid_apply]
  by_cases h : n.val < 1000
  · rw [if_pos h, if_pos h, select_one, subf_apply, mulf_apply, broadcast_apply, shapeCast_self, shapeCast_self,
      matmul_row_apply, broadcastTo_1b_ab_apply, shapeCast_self]
    rfl
  · rw [if_neg h, if_neg h, select_zero, broadcast_apply]
    exact IdealRules.named_const.ideal_named_scalar _ _ _ _ rfl

/-! ## The weights -/

/-- A 32-bit equality test widened and converted is `1` or `0`. -/
theorem onehot_word (a ℓ : BitVec 32) :
    FloatOps.sitofp (F := Ideal) .f32 ((IntOp.cmpi .eq a ℓ).setWidth 32) = if ℓ = a then (1 : EReal) else 0 := by
  show ((((IntOp.cmpi .eq a ℓ).setWidth 32).toInt : ℝ) : EReal) = _
  rw [toInt_setWidth_bit]
  by_cases h : ℓ = a
  · subst h; simp [IntOp.cmpi]
  · have h' : ¬ a = ℓ := fun e => h e.symm
    simp [IntOp.cmpi, h, h']

theorem weights_apply (v16 : Vec Ideal S512x1 .i32) (r : Fin 512) (n : Fin 1024) :
    k0_pay3 (F := Ideal) v16 (ix2 r n) = padLanes 0 (weight (v16 (ix2 r (0 : Fin 1)))) n := by
  unfold k0_pay3
  try dsimp only
  rw [select_apply, valid_apply]
  by_cases h : n.val < 1000
  · rw [if_pos h, select_one, padLanes_of_lt _ _ _ h, addf_apply, mulf_apply, broadcast_apply, broadcast_apply, sitofp_apply,
      extui_apply]
    show FloatOps.sitofp .f32 ((IntOp.cmpi .eq (iota .tc S512x1024 32 [1] iota_S512x1024_d1_w32 (ix2 r n))
        (broadcastTo S512x1024 (shapeCast S512x1 v16 shapeCasts_S512x1_S512x1) broadcasts_S512x1_S512x1024 (ix2 r n))).setWidth 32) * _ + _ = _
    rw [iota_single_apply, along_lanes_apply, shapeCast_self, onehot_word]
    rfl
  · rw [if_neg h, select_zero, padLanes_of_ge _ _ _ (by omega), broadcast_apply]
    exact Ideal.ofBits_zero_f32

/-! ## The stored row -/

/-- Row `r` of what the body stores, when the row's masked logits are the 1000 logits `s` padded with `-∞`. -/
theorem row_eq (v0 : FVec Ideal S512x1024 .bf16) (v2 : FVec Ideal S1024x1024 .bf16) (v7 : FVec Ideal S1x1024 .f32)
    (v16 : Vec Ideal S512x1 .i32) (r : Fin 512) (s : Fin 1000 → EReal)
    (hS : ∀ n : Fin 1024, masked v0 v2 v7 (ix2 r n) = padLanes ⊥ s n) :
    k0_pay1 (F := Ideal) (k0_pay3 v16) (k0_pay4 v0 v2 v7) k0_pay5 (ix2 r (0 : Fin 1))
      = rowLoss (weight (v16 (ix2 r (0 : Fin 1)))) s := by
  rw [pay4_eq]
  unfold k0_pay1
  try dsimp only
  rw [column_apply, rowsum_apply]
  refine Eq.trans (Finset.sum_congr rfl fun n _ => ?_) (paddedRow_eq_rowLoss (weight (v16 (ix2 r (0 : Fin 1)))) s)
  rw [mulf_apply, subf_apply, logProb_apply, weights_apply]
  unfold rowMax
  simp only [hS]
  have h5 : k0_pay5 (F := Ideal) (ix2 r n) = 0 := Ideal.ofBits_zero_f32
  rw [h5]

end Cert.KernelIdeal.Row

end
-- ==== Proof.KernelBlock.lean ====
/-
  One row of one block in terms of the argument arrays. When row `r` of the loaded inputs block is row `b` of the inputs
  padded with zeros to 1024 feature lanes, the loaded code book is the code book padded with zeros to 1024 × 1024, the
  loaded sums are the code words' sums, and the loaded label is label `b`, then — a zero factor killing every term of the
  inner product on the 24 extra feature lanes — the masked logits of the row are `simK` of the arguments' row on the class
  lanes and `-∞` on the rest, and what the body stores at row `r` is the loss of row `b`.
-/
import proofs.«170069_j26749056320134_1_alg».proof.Proof.KernelRow

noncomputable section

namespace Cert.KernelIdeal.Row

open Cert.KernelIdeal Cert.KernelIdeal.Gen Idealize.ShloMosaic Idealize.ShloMosaic.ValueIdx Cert.CodingLoss

variable (A0 : S16384x1000.Idx → EReal) (A1 : S16384.Idx → BitVec 32) (A2 : S1000x1000.Idx → EReal)

/-- The loss of row `b` of the arguments, with the kernel's logits. -/
def rowK (b : Fin 16384) : EReal :=
  rowLoss (weight (A1 (ix1 b))) (simK (fun d => A0 (ix2 b d)) (fun n d => A2 (ix2 n d)))

theorem block_row (x0 : FVec Ideal S512x1024 .bf16) (x1 : FVec Ideal S1024x1024 .bf16) (x2 : FVec Ideal S1x1024 .f32)
    (x3 : Vec Ideal S512x1 .i32) (y : S512x1.Idx) (r : Fin 512) (hr : (y 0).val = r.val) (b : Fin 16384)
    (h0 : ∀ d : Fin 1024, x0 (ix2 r d) = if h : d.val < 1000 then A0 (ix2 b ⟨d.val, h⟩) else 0)
    (h1 : ∀ n d : Fin 1024, x1 (ix2 n d) = if h : n.val < 1000 ∧ d.val < 1000 then A2 (ix2 ⟨n.val, h.1⟩ ⟨d.val, h.2⟩) else 0)
    (h2 : ∀ (n : Fin 1024) (h : n.val < 1000), x2 (ix2 (0 : Fin 1) n) = ∑ d : Fin 1000, A2 (ix2 ⟨n.val, h⟩ d))
    (h3 : x3 (ix2 r (0 : Fin 1)) = A1 (ix1 b)) :
    k0_pay1 (F := Ideal) (k0_pay3 x3) (k0_pay4 x0 x1 x2) k0_pay5 y = rowK A0 A1 A2 b := by
  obtain ⟨r', q, rfl⟩ : ∃ (r' : Fin 512) (q : Fin 1), y = ix2 r' q := ⟨y 0, y 1, eq_ix2 y⟩
  obtain rfl : r' = r := Fin.ext hr
  obtain rfl : q = 0 := Subsingleton.elim _ _
  unfold rowK
  rw [← h3]
  refine row_eq x0 x1 x2 x3 r' _ fun n => ?_
  rw [masked_apply]
  by_cases hn : n.val < 1000
  · rw [if_pos hn, padLanes_of_lt _ _ _ hn]
    unfold simK
    rw [h2 n hn]
    refine congrArg (fun z => Ideal.ofBits .f32 0x40000000#32 * z - ∑ d : Fin 1000, A2 (ix2 ⟨n.val, hn⟩ d)) ?_
    rw [sum_lanes _ fun d hd => by rw [h0 d, dif_neg (by omega), zero_mul]]
    refine Finset.sum_congr rfl fun k _ => ?_
    rw [h0 ⟨k.val, by omega⟩, dif_pos k.isLt, h1 n ⟨k.val, by omega⟩, dif_pos ⟨hn, k.isLt⟩]
  · rw [if_neg hn, padLanes_of_ge _ _ _ (by omega)]

end Cert.KernelIdeal.Row

end
-- ==== Proof.KernelHost.lean ====
/-
  The arrays the kernel's region finds: each array a host operation writes before the region, read at an index, in
  terms of the launch contents — the inputs and the code book padded with zeros, the code words' sums, the labels.
-/
import proofs.«170069_j26749056320134_1_alg».proof.Proof.Gen.KernelIdeal.Frame
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.HostPrefix

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

-- The launch contents of the three arguments.
set_option quotPrecheck false in
local notation "A0" => (m ((c : Thread nD τ).loc main_arg0) : S16384x1000.Idx → EReal)
set_option quotPrecheck false in
local notation "A1" => (m ((c : Thread nD τ).loc main_arg1) : S16384.Idx → BitVec 32)
set_option quotPrecheck false in
local notation "A2" => (m ((c : Thread nD τ).loc main_arg2) : S1000x1000.Idx → EReal)

/-- The padding value: the integer zero converted. -/
theorem padval_apply (i : S_.Idx) : sitofp (F := Ideal) .f32 (constantI S_ 32 0#32) i = (0 : EReal) := by
  show ((((0#32 : BitVec 32).toInt : ℤ) : ℝ) : EReal) = 0
  simp

/-! ## The arrays as terms of the launch contents -/

theorem v5_term : (V (F := Ideal) m c main_v5 : S16384x1024.Idx → EReal)
    = truncf .bf16 (pad S16384x1024 ![0, 0] ![0, 24] ![0, 0] A0 (sitofp (F := Ideal) .f32 (constantI S_ 32 0#32))
        pads_S16384x1000_S16384x1024_000_0240 h_S_) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem v7_term : (V (F := Ideal) m c main_v7 : S1024x1024.Idx → EReal)
    = truncf .bf16 (pad S1024x1024 ![0, 0] ![24, 24] ![0, 0] A2 (sitofp (F := Ideal) .f32 (constantI S_ 32 0#32))
        pads_S1000x1000_S1024x1024_0240_0240 h_S_) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem v3_term : (V (F := Ideal) m c main_v3 : S1x1024.Idx → EReal)
    = shapeCast S1x1024 (pad S1024x1 ![0, 0] ![24, 0] ![0, 0]
        (broadcastInDim S1000x1 ![0] bcast_S1000_S1000x1_0
          (Host.reduceAdd (F := Ideal) A2 (constant (F := Ideal) S_ .f32 0x00000000#32) reducesTo_S1000x1000_S1000_d1 h_S_))
        (sitofp (F := Ideal) .f32 (constantI S_ 32 0#32)) pads_S1000x1_S1024x1_0240_000 h_S_) shapeCasts_S1024x1_S1x1024 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem v8_term : (V (F := Ideal) m c main_v8 : S16384x1.Idx → BitVec 32)
    = shapeCast S16384x1 A1 shapeCasts_S16384_S16384x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-! ## The arrays at an index -/

/-- The inputs, padded with zeros to 1024 features. -/
theorem inputs_apply (b : Fin 16384) (d : Fin 1024) :
    (V (F := Ideal) m c main_v5 : S16384x1024.Idx → EReal) (ix2 b d) = (if h : d.val < 1000 then A0 (ix2 b ⟨d.val, h⟩) else 0 : EReal) := by
  refine (congrFun (v5_term m c) (ix2 b d)).trans ?_
  show pad S16384x1024 ![0, 0] ![0, 24] ![0, 0] A0 (sitofp (F := Ideal) .f32 (constantI S_ 32 0#32))
    pads_S16384x1000_S16384x1024_000_0240 h_S_ (ix2 b d) = _
  by_cases h : d.val < 1000
  · rw [dif_pos h]
    exact pad_apply_of_inside _ _ _ _ _ _ _ (ix2 b d) (ix2 b ⟨d.val, h⟩) (fun a => match a with
      | ⟨0, _⟩ => by show b.val = 0 + b.val * (0 + 1); omega
      | ⟨1, _⟩ => by show d.val = 0 + d.val * (0 + 1); omega)
  · rw [dif_neg h]
    refine (pad_apply_of_not_inside _ _ _ _ _ _ _ (ix2 b d) (1 : Fin 2) ?_).trans (padval_apply _)
    show ¬(0 ≤ d.val ∧ (d.val - 0) % 1 = 0 ∧ (d.val - 0) / 1 < 1000)
    omega

/-- The code book, padded with zeros to 1024 × 1024. -/
theorem code_apply (n d : Fin 1024) :
    (V (F := Ideal) m c main_v7 : S1024x1024.Idx → EReal) (ix2 n d)
      = (if h : n.val < 1000 ∧ d.val < 1000 then A2 (ix2 ⟨n.val, h.1⟩ ⟨d.val, h.2⟩) else 0 : EReal) := by
  refine (congrFun (v7_term m c) (ix2 n d)).trans ?_
  show pad S1024x1024 ![0, 0] ![24, 24] ![0, 0] A2 (sitofp (F := Ideal) .f32 (constantI S_ 32 0#32))
    pads_S1000x1000_S1024x1024_0240_0240 h_S_ (ix2 n d) = _
  by_cases h : n.val < 1000 ∧ d.val < 1000
  · rw [dif_pos h]
    exact pad_apply_of_inside _ _ _ _ _ _ _ (ix2 n d) (ix2 ⟨n.val, h.1⟩ ⟨d.val, h.2⟩) (fun a => match a with
      | ⟨0, _⟩ => by show n.val = 0 + n.val * (0 + 1); omega
      | ⟨1, _⟩ => by show d.val = 0 + d.val * (0 + 1); omega)
  · rw [dif_neg h]
    by_cases hn : n.val < 1000
    · refine (pad_apply_of_not_inside _ _ _ _ _ _ _ (ix2 n d) (1 : Fin 2) ?_).trans (padval_apply _)
      show ¬(0 ≤ d.val ∧ (d.val - 0) % 1 = 0 ∧ (d.val - 0) / 1 < 1000)
      omega
    · refine (pad_apply_of_not_inside _ _ _ _ _ _ _ (ix2 n d) (0 : Fin 2) ?_).trans (padval_apply _)
      show ¬(0 ≤ n.val ∧ (n.val - 0) % 1 = 0 ∧ (n.val - 0) / 1 < 1000)
      omega

/-- The code words' sums, as a row of 1024. -/
theorem codesum_apply (n : Fin 1024) (h : n.val < 1000) :
    (V (F := Ideal) m c main_v3 : S1x1024.Idx → EReal) (ix2 (0 : Fin 1) n) = (∑ d : Fin 1000, A2 (ix2 ⟨n.val, h⟩ d) : EReal) := by
  refine (congrFun (v3_term m c) (ix2 (0 : Fin 1) n)).trans ?_
  refine (shapeCast_apply _ shapeCasts_S1024x1_S1x1024 (ix2 (0 : Fin 1) n) (ix2 n (0 : Fin 1)) ?_).trans ?_
  · rw [Shape.rowMajor_val_two, Shape.rowMajor_val_two]
    show n.val * 1 + 0 = 0 * 1024 + n.val
    omega
  refine (pad_apply_of_inside _ _ _ _ _ pads_S1000x1_S1024x1_0240_000 h_S_ (ix2 n (0 : Fin 1))
    (ix2 (⟨n.val, h⟩ : Fin 1000) (0 : Fin 1)) (fun a => match a with
      | ⟨0, _⟩ => by show n.val = 0 + n.val * (0 + 1); omega
      | ⟨1, _⟩ => by show 0 = 0 + 0 * (0 + 1); omega)).trans ?_
  refine (broadcastInDim_apply _ bcast_S1000_S1000x1_0 _ (ix2 (⟨n.val, h⟩ : Fin 1000) (0 : Fin 1)) (ix1 (⟨n.val, h⟩ : Fin 1000))
    (fun a => match a with
      | ⟨0, _⟩ => by show n.val = if (1000 : Nat) = 1 then 0 else n.val; rw [if_neg (by decide)])).trans ?_
  simp only [Host.reduceAdd, Ideal.hostReduceAdd_def]
  rw [Ideal.hostReduceAdd_single reducesTo_S1000x1000_S1000_d1 (by decide)]
  show Ideal.ofBits .f32 0x00000000#32 + _ = _
  rw [Ideal.ofBits_zero_f32, zero_add]
  refine Finset.sum_congr rfl fun (k : Fin 1000) _ => ?_
  exact congrArg A2 (funext fun a => Fin.ext (by match a with | ⟨0, _⟩ => rfl | ⟨1, _⟩ => rfl))

/-- The labels, as a column. -/
theorem labels_apply (b : Fin 16384) :
    (V (F := Ideal) m c main_v8 : S16384x1.Idx → BitVec 32) (ix2 b (0 : Fin 1)) = A1 (ix1 b) := by
  refine (congrFun (v8_term m c) (ix2 b (0 : Fin 1))).trans ?_
  refine shapeCast_apply _ shapeCasts_S16384_S16384x1 (ix2 b (0 : Fin 1)) (ix1 b) ?_
  rw [Shape.rowMajor_val_one, Shape.rowMajor_val_two]
  show b.val = b.val * 1 + 0
  omega

end Cert.KernelIdeal.HostPrefix

end
-- ==== Proof.KernelTail.lean ====
/-
  The end of the kernel program: after the region has filled the array of per-row losses (one column, 16384 rows),
  the host sums the array over both axes from the initial value 0 and divides the sum by 16384. At the extended reals
  the sum over both axes into the one index of the rank-0 shape is the total sum, the column axis has one coordinate,
  and so the result is the mean ∑ b, G b / 16384 of the rows' losses G.
-/
import proofs.«170069_j26749056320134_1_alg».proof.Proof.Gen.KernelIdeal.Frame
import proofs.«170069_j26749056320134_1_alg».proof.Proof.Spec
import Idealize.ShloMosaic.Lib.ValueIdx
import Idealize.ShloMosaic.PureOps.Ideal.Laws
import Idealize.ShloMosaic.Lib.StableHlo.Run

noncomputable section

namespace Cert.KernelIdeal.Tail

open Cert.KernelIdeal Cert.KernelIdeal.Gen Idealize.ShloMosaic Idealize.ShloMosaic.TcCoe Idealize.ShloMosaic.ValueIdx Idealize.SL.Sem
open Idealize.ShloMosaic.StableHlo

/-- The sum over both axes of a one-column array whose row b holds G b, from the initial value 0, is ∑ b, G b. -/
theorem reduce_column (G : Fin 16384 → EReal) (j : S_.Idx) :
    Host.reduceAdd (F := Ideal) (fun i : S16384x1.Idx => G (i 0)) (constant S_ .f32 0x00000000#32)
      reducesTo_S16384x1_S_d0_1 h_S_ j = ∑ b : Fin 16384, G b := by
  simp only [Host.reduceAdd, Ideal.hostReduceAdd_def]
  refine (Ideal.hostReduceAdd_total reducesTo_S16384x1_S_d0_1 (fun b => b.elim0) _ _ j).trans ?_
  show Ideal.ofBits .f32 0x00000000#32 + _ = _
  rw [Ideal.ofBits_zero_f32, zero_add, ValueIdx.sum_idx2]
  refine Finset.sum_congr rfl fun a _ => ?_
  rw [Fin.sum_univ_one]

/-- The program's result after the run: the mean of the rows' losses, when the region leaves row b of its output
    array at G b. -/
theorem tail_value (m : (ℓ : Loc nD τ sig) → Buf (Elt Ideal) ℓ) (c : Dev nD) (G : Fin 16384 → EReal)
    (hfinal : ((dats (F := Ideal) m 0 c).arrAt 4 cfg0.N : S16384x1.Idx → EReal) = fun i => G (i 0)) :
    (Pipeline.afterTail₀ cfgs (dats (F := Ideal) m) 0 (V0 m) [hostOps1] c main_v11 : S_.Idx → EReal)
      = fun _ => Cert.CodingLoss.total G := by
  unfold Pipeline.afterTail₀
  show StableHlo.after hostOps1 _ (Proc.devRef .tc main_v11) = _
  after_results
  have hA : (Pipeline.withArrays (cfgs 0).spec c (V0 m c) (fun w => (dats (F := Ideal) m 0 c).arrAt w (cfgs 0).N)
      (Proc.devRef .tc main_v9) : S16384x1.Idx → EReal) = fun i => G (i 0) :=
    (Pipeline.withArrays_arr spec0 launch0.win.arr_inj c _ _ 4).trans hfinal
  rw [hA]
  funext j
  show Ideal.div (Host.reduceAdd (F := Ideal) (fun i : S16384x1.Idx => G (i 0)) (constant S_ .f32 0x00000000#32)
      reducesTo_S16384x1_S_d0_1 h_S_ j) (Ideal.ofBits .f32 0x46800000#32) = _
  rw [reduce_column]
  rfl

end Cert.KernelIdeal.Tail

end
-- ==== Proof.KernelArray.lean ====
/-
  The kernel's result as a function of its arguments.

  The pallas_call runs the body at 32 grid points; point `t` loads rows `512 t … 512 t + 511` of the padded inputs and of the
  labels, the whole padded code book and the code words' sums, and writes back rows `512 t … 512 t + 511` of the output
  column. Row `r` of point `t`'s block is row `b = 512 t + r` of the arrays, so (KernelBlock.lean) it holds the loss of row
  `b`; the 32 blocks tile the 16384 rows, so the output column ends holding every row's loss; the host operations after
  the region sum the column and divide by 16384: the result is `lossK` of the arguments.
-/
import proofs.«170069_j26749056320134_1_alg».proof.Proof.Gen.KernelIdeal.Frame
import proofs.«170069_j26749056320134_1_alg».proof.Proof.KernelBlock
import proofs.«170069_j26749056320134_1_alg».proof.Proof.KernelHost
import proofs.«170069_j26749056320134_1_alg».proof.Proof.KernelTail

set_option maxRecDepth 16384

noncomputable section

namespace Cert.KernelIdeal.Value

open Cert.KernelIdeal Cert.KernelIdeal.Gen Idealize.ShloMosaic Idealize.ShloMosaic.TcCoe Idealize.ShloMosaic.ValueIdx
open Idealize.SL.Sem Cert.CodingLoss Cert.KernelIdeal.Row
open Idealize.ShloMosaic.Pipeline (Dat)

variable (m : (ℓ : Loc nD τ sig) → Buf (Elt Ideal) ℓ) (ρ : Dev nD → PrngReg) (c : Dev nD)

/-- The inputs, the labels and the code book as launched. -/
abbrev argX : S16384x1000.Idx → EReal := m ((c : Thread nD τ).loc main_arg0)
abbrev argL : S16384.Idx → BitVec 32 := m ((c : Thread nD τ).loc main_arg1)
abbrev argC : S1000x1000.Idx → EReal := m ((c : Thread nD τ).loc main_arg2)

theorem hz : (![0, 0] : Fin 2 → Nat) = fun _ => 0 := funext fun a => by fin_cases a <;> rfl

/-- The printed index maps over the grid: the inputs', the labels' and the output's block moves with the point along the
    rows; the code book's and the sums' block stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 32 := lt_of_lt_of_eq t.isLt N_0

/-! ## The blocks a point loads -/

theorem inputs_block (t : Fin cfg0.N) (r : Fin 512) (d : Fin 1024) (hb : t.val * 512 + r.val < 16384) :
    iblk m c 0 t (ix2 r d) = (V m c main_v5 : S16384x1024.Idx → EReal) (ix2 (⟨t.val * 512 + r.val, hb⟩ : Fin 16384) d) := by
  show V m c main_v5 (((cfg0.win 0).blk t).view.emb (ix2 r d)) = V m c main_v5 _
  refine congrArg (V m c main_v5) (funext fun a => Fin.ext ?_)
  obtain ⟨e0, e1, -⟩ := idx_facts t
  match a with
  | ⟨0, _⟩ => show win0_0.index t (0 : Fin 2) * 512 + 1 * r.val = t.val * 512 + r.val; omega
  | ⟨1, _⟩ => show win0_0.index t (1 : Fin 2) * 1024 + 1 * d.val = d.val; omega

theorem code_block (t : Fin cfg0.N) (n d : Fin 1024) :
    iblk m c 1 t (ix2 n d) = (V m c main_v7 : S1024x1024.Idx → EReal) (ix2 n d) := by
  show V m c main_v7 (((cfg0.win 1).blk t).view.emb (ix2 n d)) = V m c main_v7 _
  refine congrArg (V m c main_v7) (funext fun a => Fin.ext ?_)
  obtain ⟨-, -, e2, e3, -⟩ := idx_facts t
  match a with
  | ⟨0, _⟩ => show win0_1.index t (0 : Fin 2) * 1024 + 1 * n.val = n.val; omega
  | ⟨1, _⟩ => show win0_1.index t (1 : Fin 2) * 1024 + 1 * d.val = d.val; omega

theorem codesum_block (t : Fin cfg0.N) (n : Fin 1024) :
    iblk m c 2 t (ix2 (0 : Fin 1) n) = (V m c main_v3 : S1x1024.Idx → EReal) (ix2 (0 : Fin 1) n) := by
  show V m c main_v3 (((cfg0.win 2).blk t).view.emb (ix2 (0 : Fin 1) n)) = V m c main_v3 _
  refine congrArg (V m c main_v3) (funext fun a => Fin.ext ?_)
  obtain ⟨-, -, -, -, e4, e5, -⟩ := idx_facts t
  match a with
  | ⟨0, _⟩ => show win0_2.index t (0 : Fin 2) * 1 + 1 * 0 = 0; omega
  | ⟨1, _⟩ => show win0_2.index t (1 : Fin 2) * 1024 + 1 * n.val = n.val; omega

theorem labels_block (t : Fin cfg0.N) (r : Fin 512) (hb : t.val * 512 + r.val < 16384) :
    iblk m c 3 t (ix2 r (0 : Fin 1)) = (V m c main_v8 : S16384x1.Idx → BitVec 32) (ix2 (⟨t.val * 512 + r.val, hb⟩ : Fin 16384) (0 : Fin 1)) := by
  show V m c main_v8 (((cfg0.win 3).blk t).view.emb (ix2 r (0 : Fin 1))) = V m c main_v8 _
  refine congrArg (V m c main_v8) (funext fun a => Fin.ext ?_)
  obtain ⟨-, -, -, -, -, -, e6, e7, -⟩ := idx_facts t
  match a with
  | ⟨0, _⟩ => show win0_3.index t (0 : Fin 2) * 512 + 1 * r.val = t.val * 512 + r.val; omega
  | ⟨1, _⟩ => show win0_3.index t (1 : Fin 2) * 1 + 1 * 0 = 0; omega

/-! ## What a point writes back -/

/-- Point `t` writes back block `t` of the column of row losses. -/
theorem flushed_eq (t : Fin cfg0.N) :
    (dats m 0 c).flushed 4 t
      = ((cfg0.win 4).blk t).view.read (Elt Ideal) (fun i : S16384x1.Idx => rowK (argX m c) (argL m c) (argC m c) (i 0)) := by
  show (cfg0.win 4).cut (grid0.coords t) ((dats m 0 c).after 4 t) = _
  rw [after0_4]
  unfold out0_4
  rw [View.canon_unit_zero hz]
  simp only [View.ld_unit_zero (S := S512x1024) hz, View.ld_unit_zero (S := S1024x1024) hz, View.ld_unit_zero (S := S1x1024) hz,
    View.ld_unit_zero (S := S512x1) hz]
  funext y
  have ht := point_lt t
  have hy : (y 0).val < 512 := (y 0).isLt
  obtain ⟨-, -, -, -, -, -, -, -, e8, e9⟩ := idx_facts t
  have hb : t.val * 512 + (y 0).val < 16384 := by omega
  show k0_pay1 (F := Ideal) (k0_pay3 (iblk m c 3 t)) (k0_pay4 (iblk m c 0 t) (iblk m c 1 t) (iblk m c 2 t)) k0_pay5 y
    = rowK (argX m c) (argL m c) (argC m c) ((((cfg0.win 4).blk t).view.emb y) 0)
  have hrow : (((cfg0.win 4).blk t).view.emb y) 0 = (⟨t.val * 512 + (y 0).val, hb⟩ : Fin 16384) :=
    Fin.ext (by show win0_4.index t (0 : Fin 2) * 512 + 1 * (y 0).val = t.val * 512 + (y 0).val; omega)
  rw [hrow]
  exact block_row (argX m c) (argL m c) (argC m c) (iblk m c 0 t) (iblk m c 1 t) (iblk m c 2 t) (iblk m c 3 t) y
    (⟨(y 0).val, hy⟩ : Fin 512) rfl (⟨t.val * 512 + (y 0).val, hb⟩ : Fin 16384)
    (fun d => (inputs_block m c t ⟨(y 0).val, hy⟩ d hb).trans (HostPrefix.inputs_apply m c _ d))
    (fun n d => (code_block m c t n d).trans (HostPrefix.code_apply m c n d))
    (fun n h => (codesum_block m c t n).trans (HostPrefix.codesum_apply m c n h))
    ((labels_block m c t ⟨(y 0).val, hy⟩ hb).trans (HostPrefix.labels_apply m c _))

/-! ## The blocks tile the column -/

theorem mem_blk (t : Fin cfg0.N) (i : S16384x1.Idx) :
    i ∈ ((cfg0.win 4).blk t).view.set
      ↔ ∀ a : Fin 2, win0_4.index t a * S512x1.size a ≤ (i a).val ∧ (i a).val < win0_4.index t a * S512x1.size a + S512x1.size a := by
  show i ∈ ((View.whole main_v9).slice (win0_4.rect t)).set ↔ _
  rw [View.set_slice_whole, Rect.mem_set_unit]
  exact Iff.rfl

theorem covered (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  have hN : (i 0).val / 512 < cfg0.N := by show _ < grid0.N; rw [N_0]; omega
  refine ⟨⟨(i 0).val / 512, hN⟩, flush0_4 _, ?_⟩
  rw [mem_blk]
  obtain ⟨-, -, -, -, -, -, -, -, e8, e9⟩ := idx_facts ⟨(i 0).val / 512, hN⟩
  intro a
  match a with
  | ⟨0, _⟩ =>
    show win0_4.index ⟨(i 0).val / 512, hN⟩ (0 : Fin 2) * 512 ≤ (i 0).val
      ∧ (i 0).val < win0_4.index ⟨(i 0).val / 512, hN⟩ (0 : Fin 2) * 512 + 512
    rw [e8]; show (i 0).val / 512 * 512 ≤ (i 0).val ∧ (i 0).val < (i 0).val / 512 * 512 + 512; omega
  | ⟨1, _⟩ =>
    show win0_4.index ⟨(i 0).val / 512, hN⟩ (1 : Fin 2) * 1 ≤ (i 1).val
      ∧ (i 1).val < win0_4.index ⟨(i 0).val / 512, hN⟩ (1 : Fin 2) * 1 + 1
    rw [e9]; omega

/-- The output column after the run: every row's loss. -/
theorem final :
    (dats m 0 c).arrAt 4 cfg0.N = (fun i : S16384x1.Idx => rowK (argX m c) (argL m c) (argC m c) (i 0)) :=
  (dats m 0 c).arrAt_eq_of_cover 4 _ (fun t _ => flushed_eq m c t) (covered)

/-! ## The run, read -/

/-- The kernel program's result is `lossK` of its arguments, and it leaves them unchanged. -/
theorem run : θ_run defs (onTc (τ := τ) (main (F := Ideal))) ⟨m, fun _ => 0, ρ⟩ fun r => ∀ c : Dev nD,
      r.2.mem ((c.tc : Thread nD τ).loc main_v11)
        = (fun _ => lossK (fun b d => argX m c (ix2 b d)) (fun b => argL m c (ix1 b)) (fun n d => argC m c (ix2 n d)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans
        (Tail.tail_value m c (rowK (argX m c) (argL m c) (argC m c)) (final m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Value

end
-- ==== Proof.RefRun.lean ====
/-
  The reference program's run, read in four consecutive parts.

  The program is a straight line of 44 host operations. Read as ONE composed term of the arguments, the similarity
  matrix occurs four times in it (the log-softmax subtracts the row maximum of its operand from the operand, and the
  shifted logits are used twice again), so the line is cut where few values cross:

  * part A, operations 1-12: the smoothed targets, from the labels;
  * part B, operations 13-21: the similarity matrix, from the rows and the code book;
  * part C, operations 22-36: the log-softmax of the similarity matrix;
  * part D, operations 37-44: the weighted sum of the two and the mean.

  The fold of a concatenation is the fold of the second list from the fold of the first (`after_append`). Each part
  is read with the values that enter it as given contents of their buffers, so no term is repeated; a value that
  crosses a part is kept by it because no operation of the part writes its buffer. The result is the value
  `ReadP.val_main_v17` of the three arguments, which names each operation's value as a function of the earlier ones.
-/
import proofs.«170069_j26749056320134_1_alg».proof.Proof.RefReadPatched
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 44 operations, in order (a called function's operations stand in its call's place, spelt `TRef.…`). -/
abbrev ops : List (HloOp τ sig (Elt F)) :=
  [ TRef.unary (TRef.of (T := ⟨S16384, .i32⟩) main_arg1) (TRef.of (T := ⟨S16384x1, .i32⟩) main_call0_v0) (broadcastInDim S16384x1 ![0] bcast_S16384_S16384x1_0),
    TRef.nullary (TRef.of (T := ⟨S1x1000, .i32⟩) main_call0_v1) (iotaInDim S1x1000 32 1),
    TRef.unary (TRef.of (T := ⟨S16384x1, .i32⟩) main_call0_v0) (TRef.of (T := ⟨S16384x1000, .i32⟩) main_call0_v2) (broadcastInDim S16384x1000 ![0, 1] bcast_S16384x1_S16384x1000_0_1),
    TRef.unary (TRef.of (T := ⟨S1x1000, .i32⟩) main_call0_v1) (TRef.of (T := ⟨S16384x1000, .i32⟩) main_call0_v3) (broadcastInDim S16384x1000 ![0, 1] bcast_S1x1000_S16384x1000_0_1),
    TRef.binary (TRef.of (T := ⟨S16384x1000, .i32⟩) main_call0_v2) (TRef.of (T := ⟨S16384x1000, .i32⟩) main_call0_v3) (TRef.of (T := ⟨S16384x1000, .i1⟩) main_call0_v4) (cmpi .eq),
    TRef.unary (TRef.of (T := ⟨S16384x1000, .i1⟩) main_call0_v4) (TRef.of (T := ⟨S16384x1000, .f32⟩) main_v0) (uitofp .f32),
    nullary main_cst (constant S_ .f32 0x3F666666#32),
    unary main_cst main_v1 (broadcastInDim S16384x1000 ![] bcast_S_S16384x1000 : (⟨S_, .f32⟩ : BufTy).Contents (Elt F) → (⟨S16384x1000, .f32⟩ : BufTy).Contents (Elt F)),
    binary main_v0 main_v1 main_v2 (mulf : (⟨S16384x1000, .f32⟩ : BufTy).Contents (Elt F) → (⟨S16384x1000, .f32⟩ : BufTy).Contents (Elt F) → (⟨S16384x1000, .f32⟩ : BufTy).Contents (Elt F)),
    nullary main_cst_0 (constant S_ .f32 0x38D1B717#32),
    unary main_cst_0 main_v3 (broadcastInDim S16384x1000 ![] bcast_S_S16384x1000 : (⟨S_, .f32⟩ : BufTy).Contents (Elt F) → (⟨S16384x1000, .f32⟩ : BufTy).Contents (Elt F)),
    binary main_v2 main_v3 main_v4 (addf : (⟨S16384x1000, .f32⟩ : BufTy).Contents (Elt F) → (⟨S16384x1000, .f32⟩ : BufTy).Contents (Elt F) → (⟨S16384x1000, .f32⟩ : BufTy).Contents (Elt F)),
    binary main_arg0 main_arg2 main_v5 ((fun l r => Host.dotGeneral dot_S16384x1000_S1000x1000_S16384x1000_1_1_0_0_n_n none l r) : (⟨S16384x1000, .f32⟩ : BufTy).Contents (Elt F) → (⟨S1000x1000, .f32⟩ : BufTy).Contents (Elt F) → (⟨S16384x1000, .f32⟩ : BufTy).Contents (Elt F)),
    nullary main_cst_1 (constant S_ .f32 0x3F800000#32),
    unary main_cst_1 main_v6 (broadcastInDim S16384x1000 ![] bcast_S_S16384x1000 : (⟨S_, .f32⟩ : BufTy).Contents (Elt F) → (⟨S16384x1000, .f32⟩ : BufTy).Contents (Elt F)),
    binary main_v6 main_arg0 main_v7 (subf : (⟨S16384x1000, .f32⟩ : BufTy).Contents (Elt F) → (⟨S16384x1000, .f32⟩ : BufTy).Contents (Elt F) → (⟨S16384x1000, .f32⟩ : BufTy).Contents (Elt F)),
    nullary main_cst_2 (constant S_ .f32 0x3F800000#32),
    unary main_cst_2 main_v8 (broadcastInDim S1000x1000 ![] bcast_S_S1000x1000 : (⟨S_, .f32⟩ : BufTy).Contents (Elt F) → (⟨S1000x1000, .f32⟩ : BufTy).Contents (Elt F)),
    binary main_v8 main_arg2 main_v9 (subf : (⟨S1000x1000, .f32⟩ : BufTy).Contents (Elt F) → (⟨S1000x1000, .f32⟩ : BufTy).Contents (Elt F) → (⟨S1000x1000, .f32⟩ : BufTy).Contents (Elt F)),
    binary main_v7 main_v9 main_v10 ((fun l r => Host.dotGeneral dot_S16384x1000_S1000x1000_S16384x1000_1_1_0_0_n_n none l r) : (⟨S16384x1000, .f32⟩ : BufTy).Contents (Elt F) → (⟨S1000x1000, .f32⟩ : BufTy).Contents (Elt F) → (⟨S16384x1000, .f32⟩ : BufTy).Contents (Elt F)),
    binary main_v5 main_v10 main_v11 (addf : (⟨S16384x1000, .f32⟩ : BufTy).Contents (Elt F) → (⟨S16384x1000, .f32⟩ : BufTy).Contents (Elt F) → (⟨S16384x1000, .f32⟩ : BufTy).Contents (Elt F)),
    TRef.nullary (TRef.of (T := ⟨S_, .f32⟩) main_call1_cst) (constant S_ .f32 0xFF800000#32),
    TRef.binary (TRef.of (T := ⟨S16384x1000, .f32⟩) main_v11) (TRef.of (T := ⟨S_, .f32⟩) main_call1_cst) (TRef.of (T := ⟨S16384, .f32⟩) main_call1_v0) (fun x v => Host.reduce FloatOps.maximumf x v reducesTo_S16384x1000_S16384_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S16384, .f32⟩) main_call1_v1) (broadcastInDim S16384 ![] bcast_S_S16384),
    TRef.binary (TRef.of (T := ⟨S16384, .f32⟩) main_call1_v1) (TRef.of (T := ⟨S16384, .f32⟩) main_call1_v0) (TRef.of (T := ⟨S16384, .f32⟩) main_call1_v2) maximumf,
    TRef.unary (TRef.of (T := ⟨S16384, .f32⟩) main_call1_v2) (TRef.of (T := ⟨S16384x1, .f32⟩) main_call1_v3) (broadcastInDim S16384x1 ![0] bcast_S16384_S16384x1_0),
    TRef.unary (TRef.of (T := ⟨S16384x1, .f32⟩) main_call1_v3) (TRef.of (T := ⟨S16384x1000, .f32⟩) main_call1_v4) (broadcastInDim S16384x1000 ![0, 1] bcast_S16384x1_S16384x1000_0_1),
    TRef.binary (TRef.of (T := ⟨S16384x1000, .f32⟩) main_v11) (TRef.of (T := ⟨S16384x1000, .f32⟩) main_call1_v4) (TRef.of (T := ⟨S16384x1000, .f32⟩) main_call1_v5) subf,
    TRef.unary (TRef.of (T := ⟨S16384x1000, .f32⟩) main_call1_v5) (TRef.of (T := ⟨S16384x1000, .f32⟩) main_call1_v6) Host.exp,
    TRef.nullary (TRef.of (T := ⟨S_, .f32⟩) main_call1_cst_1) (constant S_ .f32 0x00000000#32),
    TRef.binary (TRef.of (T := ⟨S16384x1000, .f32⟩) main_call1_v6) (TRef.of (T := ⟨S_, .f32⟩) main_call1_cst_1) (TRef.of (T := ⟨S16384, .f32⟩) main_call1_v7) (fun x v => Host.reduceAdd x v reducesTo_S16384x1000_S16384_d1 h_S_),
    TRef.unary (TRef.of (T := ⟨S16384, .f32⟩) main_call1_v7) (TRef.of (T := ⟨S16384x1, .f32⟩) main_call1_v8) (broadcastInDim S16384x1 ![0] bcast_S16384_S16384x1_0),
    TRef.unary (TRef.of (T := ⟨S16384x1, .f32⟩) main_call1_v8) (TRef.of (T := ⟨S16384x1, .f32⟩) main_call1_v9) Host.log,
    TRef.unary (TRef.of (T := ⟨S16384x1, .f32⟩) main_call1_v9) (TRef.of (T := ⟨S16384x1000, .f32⟩) main_call1_v10) (broadcastInDim S16384x1000 ![0, 1] bcast_S16384x1_S16384x1000_0_1),
    TRef.binary (TRef.of (T := ⟨S16384x1000, .f32⟩) main_call1_v5) (TRef.of (T := ⟨S16384x1000, .f32⟩) main_call1_v10) (TRef.of (T := ⟨S16384x1000, .f32⟩) main_v12) subf,
    unary main_v4 main_v13 (Host.negf : (⟨S16384x1000, .f32⟩ : BufTy).Contents (Elt F) → (⟨S16384x1000, .f32⟩ : BufTy).Contents (Elt F)),
    binary main_v13 main_v12 main_v14 (mulf : (⟨S16384x1000, .f32⟩ : BufTy).Contents (Elt F) → (⟨S16384x1000, .f32⟩ : BufTy).Contents (Elt F) → (⟨S16384x1000, .f32⟩ : BufTy).Contents (Elt F)),
    nullary main_cst_3 (constant S_ .f32 0x00000000#32),
    binary main_v14 main_cst_3 main_v15 ((fun x v => Host.reduceAdd x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    nullary main_cst_4 (constant S_ .f32 0x00000000#32),
    binary main_v15 main_cst_4 main_v16 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_5 (constant S_ .f32 0x46800000#32),
    binary main_v16 main_cst_5 main_v17 (Host.divf : (⟨S_, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., binary_bufs_sub .., nullary_bufs_sub .., binary_bufs_sub .., nullary_bufs_sub .., binary_bufs_sub ..⟩

/-! ## The four parts -/

/-- Operations 1-12: the one-hot rows of the labels, scaled and offset (the smoothed targets). -/
abbrev opsA : List (HloOp τ sig (Elt F)) :=
  [ TRef.unary (TRef.of (T := ⟨S16384, .i32⟩) main_arg1) (TRef.of (T := ⟨S16384x1, .i32⟩) main_call0_v0) (broadcastInDim S16384x1 ![0] bcast_S16384_S16384x1_0),
    TRef.nullary (TRef.of (T := ⟨S1x1000, .i32⟩) main_call0_v1) (iotaInDim S1x1000 32 1),
    TRef.unary (TRef.of (T := ⟨S16384x1, .i32⟩) main_call0_v0) (TRef.of (T := ⟨S16384x1000, .i32⟩) main_call0_v2) (broadcastInDim S16384x1000 ![0, 1] bcast_S16384x1_S16384x1000_0_1),
    TRef.unary (TRef.of (T := ⟨S1x1000, .i32⟩) main_call0_v1) (TRef.of (T := ⟨S16384x1000, .i32⟩) main_call0_v3) (broadcastInDim S16384x1000 ![0, 1] bcast_S1x1000_S16384x1000_0_1),
    TRef.binary (TRef.of (T := ⟨S16384x1000, .i32⟩) main_call0_v2) (TRef.of (T := ⟨S16384x1000, .i32⟩) main_call0_v3) (TRef.of (T := ⟨S16384x1000, .i1⟩) main_call0_v4) (cmpi .eq),
    TRef.unary (TRef.of (T := ⟨S16384x1000, .i1⟩) main_call0_v4) (TRef.of (T := ⟨S16384x1000, .f32⟩) main_v0) (uitofp .f32),
    nullary main_cst (constant S_ .f32 0x3F666666#32),
    unary main_cst main_v1 (broadcastInDim S16384x1000 ![] bcast_S_S16384x1000 : (⟨S_, .f32⟩ : BufTy).Contents (Elt F) → (⟨S16384x1000, .f32⟩ : BufTy).Contents (Elt F)),
    binary main_v0 main_v1 main_v2 (mulf : (⟨S16384x1000, .f32⟩ : BufTy).Contents (Elt F) → (⟨S16384x1000, .f32⟩ : BufTy).Contents (Elt F) → (⟨S16384x1000, .f32⟩ : BufTy).Contents (Elt F)),
    nullary main_cst_0 (constant S_ .f32 0x38D1B717#32),
    unary main_cst_0 main_v3 (broadcastInDim S16384x1000 ![] bcast_S_S16384x1000 : (⟨S_, .f32⟩ : BufTy).Contents (Elt F) → (⟨S16384x1000, .f32⟩ : BufTy).Contents (Elt F)),
    binary main_v2 main_v3 main_v4 (addf : (⟨S16384x1000, .f32⟩ : BufTy).Contents (Elt F) → (⟨S16384x1000, .f32⟩ : BufTy).Contents (Elt F) → (⟨S16384x1000, .f32⟩ : BufTy).Contents (Elt F)) ]

/-- Operations 13-21: the two inner products and their sum (the similarity matrix). -/
abbrev opsB : List (HloOp τ sig (Elt F)) :=
  [ binary main_arg0 main_arg2 main_v5 ((fun l r => Host.dotGeneral dot_S16384x1000_S1000x1000_S16384x1000_1_1_0_0_n_n none l r) : (⟨S16384x1000, .f32⟩ : BufTy).Contents (Elt F) → (⟨S1000x1000, .f32⟩ : BufTy).Contents (Elt F) → (⟨S16384x1000, .f32⟩ : BufTy).Contents (Elt F)),
    nullary main_cst_1 (constant S_ .f32 0x3F800000#32),
    unary main_cst_1 main_v6 (broadcastInDim S16384x1000 ![] bcast_S_S16384x1000 : (⟨S_, .f32⟩ : BufTy).Contents (Elt F) → (⟨S16384x1000, .f32⟩ : BufTy).Contents (Elt F)),
    binary main_v6 main_arg0 main_v7 (subf : (⟨S16384x1000, .f32⟩ : BufTy).Contents (Elt F) → (⟨S16384x1000, .f32⟩ : BufTy).Contents (Elt F) → (⟨S16384x1000, .f32⟩ : BufTy).Contents (Elt F)),
    nullary main_cst_2 (constant S_ .f32 0x3F800000#32),
    unary main_cst_2 main_v8 (broadcastInDim S1000x1000 ![] bcast_S_S1000x1000 : (⟨S_, .f32⟩ : BufTy).Contents (Elt F) → (⟨S1000x1000, .f32⟩ : BufTy).Contents (Elt F)),
    binary main_v8 main_arg2 main_v9 (subf : (⟨S1000x1000, .f32⟩ : BufTy).Contents (Elt F) → (⟨S1000x1000, .f32⟩ : BufTy).Contents (Elt F) → (⟨S1000x1000, .f32⟩ : BufTy).Contents (Elt F)),
    binary main_v7 main_v9 main_v10 ((fun l r => Host.dotGeneral dot_S16384x1000_S1000x1000_S16384x1000_1_1_0_0_n_n none l r) : (⟨S16384x1000, .f32⟩ : BufTy).Contents (Elt F) → (⟨S1000x1000, .f32⟩ : BufTy).Contents (Elt F) → (⟨S16384x1000, .f32⟩ : BufTy).Contents (Elt F)),
    binary main_v5 main_v10 main_v11 (addf : (⟨S16384x1000, .f32⟩ : BufTy).Contents (Elt F) → (⟨S16384x1000, .f32⟩ : BufTy).Contents (Elt F) → (⟨S16384x1000, .f32⟩ : BufTy).Contents (Elt F)) ]

/-- Operations 22-36: the log-softmax of the similarity matrix along the classes. -/
abbrev opsC : List (HloOp τ sig (Elt F)) :=
  [ TRef.nullary (TRef.of (T := ⟨S_, .f32⟩) main_call1_cst) (constant S_ .f32 0xFF800000#32),
    TRef.binary (TRef.of (T := ⟨S16384x1000, .f32⟩) main_v11) (TRef.of (T := ⟨S_, .f32⟩) main_call1_cst) (TRef.of (T := ⟨S16384, .f32⟩) main_call1_v0) (fun x v => Host.reduce FloatOps.maximumf x v reducesTo_S16384x1000_S16384_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S16384, .f32⟩) main_call1_v1) (broadcastInDim S16384 ![] bcast_S_S16384),
    TRef.binary (TRef.of (T := ⟨S16384, .f32⟩) main_call1_v1) (TRef.of (T := ⟨S16384, .f32⟩) main_call1_v0) (TRef.of (T := ⟨S16384, .f32⟩) main_call1_v2) maximumf,
    TRef.unary (TRef.of (T := ⟨S16384, .f32⟩) main_call1_v2) (TRef.of (T := ⟨S16384x1, .f32⟩) main_call1_v3) (broadcastInDim S16384x1 ![0] bcast_S16384_S16384x1_0),
    TRef.unary (TRef.of (T := ⟨S16384x1, .f32⟩) main_call1_v3) (TRef.of (T := ⟨S16384x1000, .f32⟩) main_call1_v4) (broadcastInDim S16384x1000 ![0, 1] bcast_S16384x1_S16384x1000_0_1),
    TRef.binary (TRef.of (T := ⟨S16384x1000, .f32⟩) main_v11) (TRef.of (T := ⟨S16384x1000, .f32⟩) main_call1_v4) (TRef.of (T := ⟨S16384x1000, .f32⟩) main_call1_v5) subf,
    TRef.unary (TRef.of (T := ⟨S16384x1000, .f32⟩) main_call1_v5) (TRef.of (T := ⟨S16384x1000, .f32⟩) main_call1_v6) Host.exp,
    TRef.nullary (TRef.of (T := ⟨S_, .f32⟩) main_call1_cst_1) (constant S_ .f32 0x00000000#32),
    TRef.binary (TRef.of (T := ⟨S16384x1000, .f32⟩) main_call1_v6) (TRef.of (T := ⟨S_, .f32⟩) main_call1_cst_1) (TRef.of (T := ⟨S16384, .f32⟩) main_call1_v7) (fun x v => Host.reduceAdd x v reducesTo_S16384x1000_S16384_d1 h_S_),
    TRef.unary (TRef.of (T := ⟨S16384, .f32⟩) main_call1_v7) (TRef.of (T := ⟨S16384x1, .f32⟩) main_call1_v8) (broadcastInDim S16384x1 ![0] bcast_S16384_S16384x1_0),
    TRef.unary (TRef.of (T := ⟨S16384x1, .f32⟩) main_call1_v8) (TRef.of (T := ⟨S16384x1, .f32⟩) main_call1_v9) Host.log,
    TRef.unary (TRef.of (T := ⟨S16384x1, .f32⟩) main_call1_v9) (TRef.of (T := ⟨S16384x1000, .f32⟩) main_call1_v10) (broadcastInDim S16384x1000 ![0, 1] bcast_S16384x1_S16384x1000_0_1),
    TRef.binary (TRef.of (T := ⟨S16384x1000, .f32⟩) main_call1_v5) (TRef.of (T := ⟨S16384x1000, .f32⟩) main_call1_v10) (TRef.of (T := ⟨S16384x1000, .f32⟩) main_v12) subf ]

/-- Operations 37-44: the negated targets times the log-softmax, summed over classes and rows, divided by the number of rows. -/
abbrev opsD : List (HloOp τ sig (Elt F)) :=
  [ unary main_v4 main_v13 (Host.negf : (⟨S16384x1000, .f32⟩ : BufTy).Contents (Elt F) → (⟨S16384x1000, .f32⟩ : BufTy).Contents (Elt F)),
    binary main_v13 main_v12 main_v14 (mulf : (⟨S16384x1000, .f32⟩ : BufTy).Contents (Elt F) → (⟨S16384x1000, .f32⟩ : BufTy).Contents (Elt F) → (⟨S16384x1000, .f32⟩ : BufTy).Contents (Elt F)),
    nullary main_cst_3 (constant S_ .f32 0x00000000#32),
    binary main_v14 main_cst_3 main_v15 ((fun x v => Host.reduceAdd x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    nullary main_cst_4 (constant S_ .f32 0x00000000#32),
    binary main_v15 main_cst_4 main_v16 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_5 (constant S_ .f32 0x46800000#32),
    binary main_v16 main_cst_5 main_v17 (Host.divf : (⟨S_, .f32⟩ : BufTy).Contents (Elt F) → (⟨S_, .f32⟩ : BufTy).Contents (Elt F) → (⟨S_, .f32⟩ : BufTy).Contents (Elt F)) ]

set_option maxRecDepth 8192 in
/-- The line is the four parts in order. -/
theorem ops_split : (ops : List (HloOp τ sig (Elt F))) = opsA ++ (opsB ++ (opsC ++ opsD)) := rfl

/-- The fold of a concatenation: the second list's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Contents moved to a buffer's own type and back are the contents. -/
theorem ofBuf_toBuf {T : BufTy} (x : TRef sig T) (v : T.Contents (Elt F)) : x.ofBuf (x.toBuf v) = v := by
  obtain ⟨r, h, _, _⟩ := x
  subst h
  rfl

/-! ## Each part's result from the contents it starts at -/

/-- Part A ends with the smoothed targets of the labels it started at. -/
theorem partA (W : Valuation τ sig (Elt F)) :
    after opsA W (Proc.devRef .tc main_v4 : DevRef τ sig) = ReadP.val_main_v4 (F := F) (W (Proc.devRef .tc main_arg1 : DevRef τ sig)) := by
  after_results_simp
  rfl

/-- Part B ends with the similarity matrix of the rows and the code book it started at. -/
theorem partB (W : Valuation τ sig (Elt F)) :
    after opsB W (Proc.devRef .tc main_v11 : DevRef τ sig)
      = ReadP.val_main_v11 (F := F) (W (Proc.devRef .tc main_arg0 : DevRef τ sig)) (W (Proc.devRef .tc main_arg2 : DevRef τ sig)) := by
  after_results_simp
  rfl

/-- Part C ends with the log-softmax of the similarity matrix it started at. The operations of a called function
    move each value to its buffer's own type and back (`ofBuf_toBuf`); with those pairs gone each operation of the
    composed term faces the definition that names it. -/
theorem partC (W : Valuation τ sig (Elt F)) (x0 : (⟨S16384x1000, .f32⟩ : BufTy).Contents (Elt F)) (x2 : (⟨S1000x1000, .f32⟩ : BufTy).Contents (Elt F))
    (h : W (Proc.devRef .tc main_v11 : DevRef τ sig) = ReadP.val_main_v11 (F := F) x0 x2) :
    after opsC W (Proc.devRef .tc main_v12 : DevRef τ sig) = ReadP.val_main_v12 (F := F) x0 x2 := by
  after_results_simp
  simp only [h, ofBuf_toBuf]
  rfl

/-- Part D ends with the mean loss of the smoothed targets and the log-softmax it started at. -/
theorem partD (W : Valuation τ sig (Elt F)) (x0 : (⟨S16384x1000, .f32⟩ : BufTy).Contents (Elt F)) (x1 : (⟨S16384, .i32⟩ : BufTy).Contents (Elt F))
    (x2 : (⟨S1000x1000, .f32⟩ : BufTy).Contents (Elt F))
    (h4 : W (Proc.devRef .tc main_v4 : DevRef τ sig) = ReadP.val_main_v4 (F := F) x1)
    (h12 : W (Proc.devRef .tc main_v12 : DevRef τ sig) = ReadP.val_main_v12 (F := F) x0 x2) :
    after opsD W (Proc.devRef .tc main_v17 : DevRef τ sig) = ReadP.val_main_v17 (F := F) x0 x1 x2 := by
  after_results_simp
  simp only [h4, h12]
  rfl

/-! ## What crosses a part is kept by it -/

/-- Part A writes neither the rows nor the code book. -/
theorem keptA_arg0 (W : Valuation τ sig (Elt F)) : after opsA W (Proc.devRef .tc main_arg0 : DevRef τ sig) = W (Proc.devRef .tc main_arg0 : DevRef τ sig) := by
  after_results_simp
theorem keptA_arg2 (W : Valuation τ sig (Elt F)) : after opsA W (Proc.devRef .tc main_arg2 : DevRef τ sig) = W (Proc.devRef .tc main_arg2 : DevRef τ sig) := by
  after_results_simp
/-- Parts B and C do not write the smoothed targets. -/
theorem keptB_v4 (W : Valuation τ sig (Elt F)) : after opsB W (Proc.devRef .tc main_v4 : DevRef τ sig) = W (Proc.devRef .tc main_v4 : DevRef τ sig) := by
  after_results_simp
theorem keptC_v4 (W : Valuation τ sig (Elt F)) : after opsC W (Proc.devRef .tc main_v4 : DevRef τ sig) = W (Proc.devRef .tc main_v4 : DevRef τ sig) := by
  after_results_simp

/-! ## The whole line -/

/-- No operation of the line writes an argument. -/
theorem kept_arg0 (V : Valuation τ sig (Elt F)) : after ops V (Proc.devRef .tc main_arg0 : DevRef τ sig) = V (Proc.devRef .tc main_arg0 : DevRef τ sig) := by
  rw [ops_split, after_append, after_append, after_append]
  after_results_simp
theorem kept_arg1 (V : Valuation τ sig (Elt F)) : after ops V (Proc.devRef .tc main_arg1 : DevRef τ sig) = V (Proc.devRef .tc main_arg1 : DevRef τ sig) := by
  rw [ops_split, after_append, after_append, after_append]
  after_results_simp
theorem kept_arg2 (V : Valuation τ sig (Elt F)) : after ops V (Proc.devRef .tc main_arg2 : DevRef τ sig) = V (Proc.devRef .tc main_arg2 : DevRef τ sig) := by
  rw [ops_split, after_append, after_append, after_append]
  after_results_simp

/-- The line ends with the mean loss of its three arguments: part D from the targets part A left (kept by B and C)
    and the log-softmax part C made of the similarity matrix part B left, itself made of the arguments A kept. -/
theorem after_ops (V : Valuation τ sig (Elt F)) :
    after ops V (Proc.devRef .tc main_v17 : DevRef τ sig)
      = ReadP.val_main_v17 (F := F) (V (Proc.devRef .tc main_arg0 : DevRef τ sig)) (V (Proc.devRef .tc main_arg1 : DevRef τ sig)) (V (Proc.devRef .tc main_arg2 : DevRef τ sig)) := by
  rw [ops_split, after_append, after_append, after_append]
  refine partD _ _ _ _ ?_ ?_
  · rw [keptC_v4, keptB_v4, partA]
  · refine partC _ _ _ ?_
    rw [partB, keptA_arg0, keptA_arg2]

/-- On every device, for any float values, from any memory with zero counters: every weakly fair execution of
    @main terminates with the result buffer at `ReadP.val_main_v17` of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = ReadP.val_main_v17 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v17).trans (after_ops (launchContents m c)),
      (h c main_arg0).trans (kept_arg0 (launchContents m c)),
      (h c main_arg1).trans (kept_arg1 (launchContents m c)),
      (h c main_arg2).trans (kept_arg2 (launchContents m c))⟩)
    (run_seq scopedRefs_eq scopedSems_eq defs main (fun _ => ops) main_eq (fun _ => ops_sub) m ρ)

end Cert.ReferenceIdeal.RefRun

end
-- ==== Proof.RefValue.lean ====
/-
  The reference program's value is the specification's `lossR`: each stage of the program, read at an index built from
  a row `b` and a class `n`, is the matching piece of the specification — the smoothed target, the Hamming similarity,
  the row's largest logit, the log-softmax, the row's loss and the mean over the rows.
-/
import proofs.«170069_j26749056320134_1_alg».proof.Proof.RefReadPatched
import proofs.«170069_j26749056320134_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

variable (x0 : (⟨S16384x1000, .f32⟩ : BufTy).Contents (Elt Ideal)) (x1 : (⟨S16384, .i32⟩ : BufTy).Contents (Elt Ideal))
  (x2 : (⟨S1000x1000, .f32⟩ : BufTy).Contents (Elt Ideal))

/-- The one-hot entry: the unsigned value of the comparison's bit is `1` when the words agree and `0` otherwise. -/
theorem uitofp_cmpi_eq (a c : BitVec 32) :
    FloatOps.uitofp (F := Ideal) .f32 (IntOp.cmpi .eq a c) = if a = c then (1 : EReal) else 0 := by
  by_cases h : a = c
  · rw [if_pos h]
    show (((IntOp.cmpi .eq a c).toNat : ℝ) : EReal) = 1
    have : IntOp.cmpi .eq a c = 1#1 := by simp [IntOp.cmpi, h]
    rw [this]; simp
  · rw [if_neg h]
    show (((IntOp.cmpi .eq a c).toNat : ℝ) : EReal) = 0
    have hb : (a == c) = false := beq_eq_false_iff_ne.2 h
    have : IntOp.cmpi .eq a c = 0#1 := by simp [IntOp.cmpi, hb]
    rw [this]; simp

/-- The smoothed target at row `b`, class `n`. -/
theorem weight_apply (b : Fin 16384) (n : Fin 1000) :
    ReadP.val_main_v4 (F := Ideal) x1 (ValueIdx.ix2 b n) = Cert.CodingLoss.weight (x1 (ValueIdx.ix1 b)) n := by
  rw [ReadP.val_main_v4_apply, ReadP.val_main_v2_apply, ReadP.val_main_v3_apply, ReadP.val_main_v1_apply,
    ReadP.val_main_cst_apply, ReadP.val_main_cst_0_apply, ReadP.val_main_v0_apply, ReadP.val_main_call0_v4_apply,
    ReadP.val_main_call0_v2_apply, ReadP.val_main_call0_v0_apply, ReadP.val_main_call0_v3_apply,
    ReadP.val_main_call0_v1_apply, uitofp_cmpi_eq]
  have e : ReadP.idx_main_call0_v0 (ReadP.idx_main_call0_v2 (ValueIdx.ix2 b n)) = ValueIdx.ix1 b :=
    funext fun a => Fin.ext (by match a with | ⟨0, _⟩ => rfl)
  rw [e]
  rfl

/-- The logit at row `b`, class `n`: the Hamming similarity of the row and the code word. -/
theorem sim_apply (b : Fin 16384) (n : Fin 1000) :
    ReadP.val_main_v11 (F := Ideal) x0 x2 (ValueIdx.ix2 b n)
      = Cert.CodingLoss.simR (fun d => x0 (ValueIdx.ix2 b d)) (fun n d => x2 (ValueIdx.ix2 n d)) n := by
  rw [ReadP.val_main_v11_apply, ReadP.val_main_v5_apply, ReadP.val_main_v10_apply]
  unfold Cert.CodingLoss.simR
  show (∑ k : Fin 1000, _) + (∑ k : Fin 1000, _) = _
  refine congrArg₂ (· + ·) (Finset.sum_congr rfl fun k _ => ?_) (Finset.sum_congr rfl fun k _ => ?_)
  · have el : ReadP.lidx_main_v5 (ValueIdx.ix2 b n) k = ValueIdx.ix2 b k :=
      funext fun a => Fin.ext (by match a with | ⟨0, _⟩ => rfl | ⟨1, _⟩ => rfl)
    have er : ReadP.ridx_main_v5 (ValueIdx.ix2 b n) k = ValueIdx.ix2 n k :=
      funext fun a => Fin.ext (by match a with | ⟨0, _⟩ => rfl | ⟨1, _⟩ => rfl)
    rw [el, er]
  · have el : ReadP.lidx_main_v10 (ValueIdx.ix2 b n) k = ValueIdx.ix2 b k :=
      funext fun a => Fin.ext (by match a with | ⟨0, _⟩ => rfl | ⟨1, _⟩ => rfl)
    have er : ReadP.ridx_main_v10 (ValueIdx.ix2 b n) k = ValueIdx.ix2 n k :=
      funext fun a => Fin.ext (by match a with | ⟨0, _⟩ => rfl | ⟨1, _⟩ => rfl)
    rw [el, er, ReadP.val_main_v7_apply, ReadP.val_main_v9_apply, ReadP.val_main_v6_apply, ReadP.val_main_v8_apply,
      ReadP.val_main_cst_1_apply, ReadP.val_main_cst_2_apply]
    rfl

/-- The pattern `0xFF800000` is the least extended real. -/
theorem ofBits_neg_inf : Ideal.ofBits .f32 0xFF800000#32 = (⊥ : EReal) := by simp [Ideal.ofBits, Ideal.ieee]

/-- The row's largest logit. -/
theorem rowmax_apply (b : Fin 16384) :
    ReadP.val_main_call1_v2 (F := Ideal) x0 x2 (ValueIdx.ix1 b)
      = Finset.univ.sup (Cert.CodingLoss.simR (fun d => x0 (ValueIdx.ix2 b d)) (fun n d => x2 (ValueIdx.ix2 n d))) := by
  rw [ReadP.val_main_call1_v2_apply, ReadP.val_main_call1_v1_apply, ReadP.val_main_call1_cst_0_apply]
  unfold ReadP.val_main_call1_v0
  rw [Host.reduce_eq_fold_single FloatOps.maximumf _ _ reducesTo_S16384x1000_S16384_d1
    (by decide : S16384x1000.Reduces [1] S16384) h_S_ (ValueIdx.ix1 b), ReadP.val_main_call1_cst_apply]
  show max (Ideal.ofBits .f32 0xFF800000#32) (Finset.fold max (Ideal.ofBits .f32 0xFF800000#32) _ _) = _
  rw [ofBits_neg_inf, max_bot_left]
  unfold Finset.sup
  refine Finset.fold_congr fun (k : Fin 1000) _ => ?_
  have e : (by decide : S16384x1000.Reduces [1] S16384).lift (ValueIdx.ix1 b) k = ValueIdx.ix2 b k :=
    funext fun a => Fin.ext (by match a with | ⟨0, _⟩ => rfl | ⟨1, _⟩ => rfl)
  exact (congrArg (ReadP.val_main_v11 (F := Ideal) x0 x2) e).trans (sim_apply x0 x2 b k)

/-- The shifted logit at row `b`, class `n`: the logit less the row's largest. -/
theorem shifted_apply (b : Fin 16384) (n : Fin 1000) :
    ReadP.val_main_call1_v5 (F := Ideal) x0 x2 (ValueIdx.ix2 b n)
      = Cert.CodingLoss.simR (fun d => x0 (ValueIdx.ix2 b d)) (fun n d => x2 (ValueIdx.ix2 n d)) n
        - Finset.univ.sup (Cert.CodingLoss.simR (fun d => x0 (ValueIdx.ix2 b d)) (fun n d => x2 (ValueIdx.ix2 n d))) := by
  rw [ReadP.val_main_call1_v5_apply, ReadP.val_main_call1_v4_apply, ReadP.val_main_call1_v3_apply]
  have e : ReadP.idx_main_call1_v3 (ReadP.idx_main_call1_v4 (ValueIdx.ix2 b n)) = ValueIdx.ix1 b :=
    funext fun a => Fin.ext (by match a with | ⟨0, _⟩ => rfl)
  rw [e, rowmax_apply, sim_apply]
  rfl

/-- The log-softmax at row `b`, class `n`. -/
theorem logp_apply (b : Fin 16384) (n : Fin 1000) :
    ReadP.val_main_v12 (F := Ideal) x0 x2 (ValueIdx.ix2 b n)
      = (Cert.CodingLoss.simR (fun d => x0 (ValueIdx.ix2 b d)) (fun n d => x2 (ValueIdx.ix2 n d)) n
          - Finset.univ.sup (Cert.CodingLoss.simR (fun d => x0 (ValueIdx.ix2 b d)) (fun n d => x2 (ValueIdx.ix2 n d))))
        - Ideal.log (∑ n' : Fin 1000, Ideal.exp
            (Cert.CodingLoss.simR (fun d => x0 (ValueIdx.ix2 b d)) (fun n d => x2 (ValueIdx.ix2 n d)) n'
              - Finset.univ.sup (Cert.CodingLoss.simR (fun d => x0 (ValueIdx.ix2 b d)) (fun n d => x2 (ValueIdx.ix2 n d))))) := by
  rw [ReadP.val_main_v12_apply, shifted_apply, ReadP.val_main_call1_v10_apply, ReadP.val_main_call1_v9_apply,
    ReadP.val_main_call1_v8_apply]
  have e : ReadP.idx_main_call1_v8 (ReadP.idx_main_call1_v10 (ValueIdx.ix2 b n)) = ValueIdx.ix1 b :=
    funext fun a => Fin.ext (by match a with | ⟨0, _⟩ => rfl)
  rw [e, ReadP.val_main_call1_v7_apply, ReadP.val_main_call1_cst_1_apply]
  show _ - Ideal.log (Ideal.ofBits .f32 0x00000000#32 + _) = _
  rw [Ideal.ofBits_zero_f32, zero_add]
  refine congrArg (fun t => _ - Ideal.log t) (Finset.sum_congr rfl fun k _ => ?_)
  have e2 : ReadP.idx_main_call1_v7 (ValueIdx.ix1 b) k = ValueIdx.ix2 b k :=
    funext fun a => Fin.ext (by match a with | ⟨0, _⟩ => rfl | ⟨1, _⟩ => rfl)
  rw [e2, ReadP.val_main_call1_v6_apply, shifted_apply]
  rfl

/-- The row's loss. -/
theorem rowloss_apply (b : Fin 16384) :
    ReadP.val_main_v15 (F := Ideal) x0 x1 x2 (ValueIdx.ix1 b)
      = Cert.CodingLoss.rowLoss (Cert.CodingLoss.weight (x1 (ValueIdx.ix1 b)))
          (Cert.CodingLoss.simR (fun d => x0 (ValueIdx.ix2 b d)) (fun n d => x2 (ValueIdx.ix2 n d))) := by
  rw [ReadP.val_main_v15_apply, ReadP.val_main_cst_3_apply]
  show Ideal.ofBits .f32 0x00000000#32 + _ = _
  rw [Ideal.ofBits_zero_f32, zero_add]
  unfold Cert.CodingLoss.rowLoss
  refine Finset.sum_congr rfl fun k _ => ?_
  have e2 : ReadP.idx_main_v15 (ValueIdx.ix1 b) k = ValueIdx.ix2 b k :=
    funext fun a => Fin.ext (by match a with | ⟨0, _⟩ => rfl | ⟨1, _⟩ => rfl)
  rw [e2, ReadP.val_main_v14_apply, ReadP.val_main_v13_apply, weight_apply, logp_apply]
  rfl

/-- The rank-1 indices of extent 16384 are the rows. -/
def rowEquiv : Fin 16384 ≃ S16384.Idx where
  toFun := ValueIdx.ix1
  invFun := fun j => j 0
  left_inv := fun _ => rfl
  right_inv := fun j => (ValueIdx.eq_ix1 j).symm

/-- A sum over the rank-1 indices is the sum over the rows. -/
theorem sum_rows (f : S16384.Idx → EReal) : ∑ j : S16384.Idx, f j = ∑ b : Fin 16384, f (ValueIdx.ix1 b) :=
  (Equiv.sum_comp rowEquiv f).symm

/-- The reference program's result is the specification's loss with the Hamming-similarity logits. -/
theorem val_eq_lossR (x0 : (⟨S16384x1000, .f32⟩ : BufTy).Contents (Elt Ideal)) (x1 : (⟨S16384, .i32⟩ : BufTy).Contents (Elt Ideal)) (x2 : (⟨S1000x1000, .f32⟩ : BufTy).Contents (Elt Ideal)) :
    ReadP.val_main_v17 (F := Ideal) x0 x1 x2
      = fun _ => Cert.CodingLoss.lossR (fun b d => x0 (ValueIdx.ix2 b d)) (fun b => x1 (ValueIdx.ix1 b)) (fun n d => x2 (ValueIdx.ix2 n d)) := by
  funext i
  rw [ReadP.val_main_v17_apply, ReadP.val_main_v16_apply, ReadP.val_main_cst_4_apply, ReadP.val_main_cst_5_apply]
  show Ideal.div (Ideal.ofBits .f32 0x00000000#32 + _) (Ideal.ofBits .f32 0x46800000#32) = _
  rw [Ideal.ofBits_zero_f32, zero_add]
  rw [sum_rows]
  simp only [rowloss_apply]
  rfl

end Cert.ReferenceIdeal.RefValue

end
-- ==== Proof.LogSoftmaxShift.lean ====
/-
  The log-softmax of a row of real logits does not change when one real number is added to every logit, and the two
  logits of the coding loss differ, for real inputs, by the class-independent number 1000 - ∑ x. Hence the two losses
  agree on finite inputs.

  The route: for real logits s the term of class n, (s n - M) - log ∑ exp (s n' - M) with M the largest logit, is the
  real number s n - log ∑ exp (s n') (the shift M cancels: exp (a - M) = exp a / exp M and log (S / exp M) = log S - M).
  Adding K to every logit multiplies the sum of exponentials by exp K, so the term is unchanged.
-/
import proofs.«170069_j26749056320134_1_alg».proof.Proof.Spec

noncomputable section

namespace Cert.CodingLoss

open Idealize.ShloMosaic

/-- The coercion of the reals into the extended reals commutes with finite sums. -/
theorem coe_finset_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The pattern 0x40000000 is the real number 2. -/
theorem ofBits_two : Ideal.ofBits .f32 0x40000000#32 = ((2 : ℝ) : EReal) := by
  simp [Ideal.ofBits, Ideal.ieee, -EReal.coe_mul]; norm_num

/-- The pattern 0x3F800000 is the real number 1. -/
theorem ofBits_one : Ideal.ofBits .f32 0x3F800000#32 = ((1 : ℝ) : EReal) := by
  simp [Ideal.ofBits, Ideal.ieee, -EReal.coe_mul]; norm_num

/-- The sum of the exponentials of finitely many (at least one) reals is positive. -/
theorem sum_exp_pos (s : Fin 1000 → ℝ) : 0 < ∑ n : Fin 1000, Real.exp (s n) :=
  Finset.sum_pos (fun _ _ => Real.exp_pos _) Finset.univ_nonempty

/-- The weighted cross entropy of a row of real logits: the shift by the largest logit cancels. -/
theorem rowLoss_coe (w : Fin 1000 → EReal) (s : Fin 1000 → ℝ) :
    rowLoss w (fun n => (s n : EReal))
      = ∑ n : Fin 1000, (-(w n)) * ((s n - Real.log (∑ n' : Fin 1000, Real.exp (s n')) : ℝ) : EReal) := by
  obtain ⟨m, -, hm⟩ := Finset.exists_mem_eq_sup Finset.univ Finset.univ_nonempty (fun n : Fin 1000 => (s n : EReal))
  unfold rowLoss
  refine Finset.sum_congr rfl fun n _ => ?_
  refine congrArg (fun t => -(w n) * t) ?_
  rw [hm]
  have hpos : 0 < ∑ n' : Fin 1000, Real.exp (s n' - s m) := sum_exp_pos fun n' => s n' - s m
  have h1 : (∑ n' : Fin 1000, Ideal.exp ((s n' : EReal) - (s m : EReal)))
      = ((∑ n' : Fin 1000, Real.exp (s n' - s m) : ℝ) : EReal) := by
    rw [coe_finset_sum]
    refine Finset.sum_congr rfl fun n' _ => ?_
    rw [← EReal.coe_sub]; rfl
  rw [h1, Ideal.log_coe, if_neg (not_le.mpr hpos), ← EReal.coe_sub, ← EReal.coe_sub]
  refine congrArg Real.toEReal ?_
  have h2 : ∑ n' : Fin 1000, Real.exp (s n' - s m) = (∑ n' : Fin 1000, Real.exp (s n')) / Real.exp (s m) := by
    rw [Finset.sum_div]; exact Finset.sum_congr rfl fun _ _ => Real.exp_sub _ _
  rw [h2, Real.log_div (ne_of_gt (sum_exp_pos s)) (Real.exp_ne_zero _), Real.log_exp]
  ring

/-- Adding one real number to every logit does not change a class's log-probability. -/
theorem logprob_shift (s : Fin 1000 → ℝ) (K : ℝ) (n : Fin 1000) :
    (s n + K) - Real.log (∑ n' : Fin 1000, Real.exp (s n' + K))
      = s n - Real.log (∑ n' : Fin 1000, Real.exp (s n')) := by
  have h : ∑ n' : Fin 1000, Real.exp (s n' + K) = (∑ n' : Fin 1000, Real.exp (s n')) * Real.exp K := by
    rw [Finset.sum_mul]; exact Finset.sum_congr rfl fun _ _ => Real.exp_add _ _
  rw [h, Real.log_mul (ne_of_gt (sum_exp_pos s)) (Real.exp_ne_zero _), Real.log_exp]
  ring

/-- One row: for a real row and a real code book the two logits give the same loss. -/
theorem rowLoss_simK_eq_simR (w x : Fin 1000 → EReal) (C : Fin 1000 → Fin 1000 → EReal)
    (hx : ∀ d, ∃ r : ℝ, x d = (r : EReal)) (hC : ∀ n d, ∃ r : ℝ, C n d = (r : EReal)) :
    rowLoss w (simK x C) = rowLoss w (simR x C) := by
  choose x' hx' using hx
  choose C' hC' using hC
  obtain rfl : x = fun d => (x' d : EReal) := funext hx'
  obtain rfl : C = fun n d => (C' n d : EReal) := funext fun n => funext (hC' n)
  obtain ⟨sk, hsk⟩ : ∃ sk : Fin 1000 → ℝ,
      sk = fun n => 2 * ∑ d : Fin 1000, x' d * C' n d - ∑ d : Fin 1000, C' n d := ⟨_, rfl⟩
  obtain ⟨K, hKdef⟩ : ∃ K : ℝ, K = 1000 - ∑ d : Fin 1000, x' d := ⟨_, rfl⟩
  have hK : simK (fun d => (x' d : EReal)) (fun n d => (C' n d : EReal)) = fun n => ((sk n : ℝ) : EReal) := by
    funext n
    rw [hsk]
    simp only [simK, ofBits_two, EReal.coe_sub, EReal.coe_mul, coe_finset_sum]
  have hR : simR (fun d => (x' d : EReal)) (fun n d => (C' n d : EReal)) = fun n => ((sk n + K : ℝ) : EReal) := by
    funext n
    rw [hsk, hKdef]
    have e : (2 * ∑ d : Fin 1000, x' d * C' n d - ∑ d : Fin 1000, C' n d) + (1000 - ∑ d : Fin 1000, x' d)
        = (∑ d : Fin 1000, x' d * C' n d) + ∑ d : Fin 1000, (1 - x' d) * (1 - C' n d) := by
      have e1 : ∀ d, (1 - x' d) * (1 - C' n d) = 1 - x' d - C' n d + x' d * C' n d := fun d => by ring
      simp only [e1, Finset.sum_add_distrib, Finset.sum_sub_distrib, Finset.sum_const, Finset.card_univ,
        Fintype.card_fin, nsmul_eq_mul]
      push_cast; ring
    rw [e]
    simp only [simR, ofBits_one, EReal.coe_sub, EReal.coe_mul, EReal.coe_add, coe_finset_sum]
  rw [hK, hR, rowLoss_coe, rowLoss_coe]
  refine Finset.sum_congr rfl fun n _ => ?_
  rw [logprob_shift]

/-- On finite inputs the loss with the logits `simK` is the loss with the logits `simR`. -/
theorem lossK_eq_lossR (X : Fin 16384 → Fin 1000 → EReal) (L : Fin 16384 → BitVec 32) (C : Fin 1000 → Fin 1000 → EReal)
    (hX : ∀ b d, ∃ r : ℝ, X b d = (r : EReal)) (hC : ∀ n d, ∃ r : ℝ, C n d = (r : EReal)) :
    lossK X L C = lossR X L C := by
  unfold lossK lossR
  refine congrArg total (funext fun b => ?_)
  exact rowLoss_simK_eq_simR _ _ _ (hX b) hC

end Cert.CodingLoss

end
-- ==== Proof.FiniteInputs.lean ====
/-
  The precondition read back: the printed predicate says |x| < +∞ for every entry x of the rows and of the code book
  (a comparison with the pattern of +∞, reduced by "and" over all axes), and an extended real whose absolute value
  max x (-x) is below +∞ is a real number (for x = ±∞ the absolute value is +∞ itself).
-/
import proofs.«170069_j26749056320134_1_alg».proof.Proof.Gen.Pre_finite_inputs
import Idealize.ShloMosaic.Lib.ReduceAll
import Idealize.ShloMosaic.Lib.ValueIdx

noncomputable section

namespace Cert.FiniteInputs

open Idealize.ShloMosaic Cert.Pre_finite_inputs

/-- The rank-0 shape has one index. -/
instance : Subsingleton S_.Idx := ⟨fun a b => funext fun d => d.elim0⟩

/-- The pattern 0x7F800000 is +∞. -/
theorem ofBits_inf : Ideal.ofBits .f32 0x7F800000#32 = (⊤ : EReal) := by simp [Ideal.ofBits, Ideal.ieee]

/-- An extended real whose absolute value compares below +∞ is a real number. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec
  · simp [Ideal.cmp] at h
  · exact ⟨_, rfl⟩
  · simp [Ideal.cmp] at h

/-- The precondition gives: every entry of the rows and of the code book is a real number. -/
theorem real_of_pre (a0 : FVec Ideal Cert.Pre_finite_inputs.S16384x1000 .f32) (a1 : IVec Cert.Pre_finite_inputs.S16384 32)
    (a2 : FVec Ideal Cert.Pre_finite_inputs.S1000x1000 .f32)
    (h : Cert.Pre_finite_inputs.fn (F := Ideal) a0 a1 a2 = fun _ => 1#1) :
    (∀ i, ∃ r : ℝ, a0 i = (r : EReal)) ∧ (∀ i, ∃ r : ℝ, a2 i = (r : EReal)) := by
  have e := congrFun h ValueIdx.ix0
  dsimp only [Cert.Pre_finite_inputs.fn] at e
  change IntOp.andi _ _ = 1#1 at e
  obtain ⟨e0, e2⟩ := IntOp.andi_eq_one.1 e
  refine ⟨fun i => ?_, fun i => ?_⟩
  · exact real_of_abs_lt_top _ (Host.reduce_andi_all _ _ _ _ _ e0 i)
  · exact real_of_abs_lt_top _ (Host.reduce_andi_all _ _ _ _ _ e2 i)

end Cert.FiniteInputs

end
-- ==== Proof.lean ====
/-
  The certificate of the coding loss kernel: a label-smoothed cross entropy of a log-softmax over 1000 classes, averaged
  over 16384 rows, the logits a Hamming similarity of each input row with each code word.

  The reference's logit is `∑ d, x d · C n d + ∑ d, (1 - x d) · (1 - C n d)`; the kernel's is `2 · ∑ d, x d · C n d - ∑ d, C n d`,
  computed on 1024 lanes whose 24 extra lanes hold `-∞` (the named constant) in the logits and `0` in the weights. For
  finite inputs the two logits differ by `1000 - ∑ d, x d`, which does not depend on the class, and a log-softmax does not
  see a shift of all its real logits; the extra lanes are invisible at the extended reals (`exp (-∞) = 0`, `0 · (-∞) = 0`,
  `max x (-∞) = x`). So both programs end with the same extended real (`algebraic`).

  * Spec.lean states the loss as one function of the arguments, with either logit (`lossK`, `lossR`);
  * LogSoftmaxShift.lean: for real inputs `lossK = lossR`; FiniteInputs.lean: the precondition makes the inputs real;
  * PaddedLanes.lean, KernelRow.lean, KernelBlock.lean, KernelHost.lean, KernelArray.lean, KernelTail.lean: the kernel
    program's result is `lossK` of its arguments;
  * RefRun.lean, RefValue.lean: the reference program's result is `lossR` of its arguments.
-/
import proofs.«170069_j26749056320134_1_alg».proof.Defs
import proofs.«170069_j26749056320134_1_alg».proof.Proof.Gen.Kernel
import proofs.«170069_j26749056320134_1_alg».proof.Proof.Gen.Kernel.Skeleton
import proofs.«170069_j26749056320134_1_alg».proof.Proof.Gen.Kernel.Launch
import proofs.«170069_j26749056320134_1_alg».proof.Proof.Gen.Kernel.Points
import proofs.«170069_j26749056320134_1_alg».proof.Proof.Gen.Kernel.Frame
import proofs.«170069_j26749056320134_1_alg».proof.Proof.Gen.KernelIdeal
import proofs.«170069_j26749056320134_1_alg».proof.Proof.Gen.KernelIdeal.Skeleton
import proofs.«170069_j26749056320134_1_alg».proof.Proof.Gen.KernelIdeal.Launch
import proofs.«170069_j26749056320134_1_alg».proof.Proof.Gen.KernelIdeal.Points
import proofs.«170069_j26749056320134_1_alg».proof.Proof.Gen.KernelIdeal.Frame
import proofs.«170069_j26749056320134_1_alg».proof.Proof.Gen.ReferenceIdeal
import proofs.«170069_j26749056320134_1_alg».proof.Proof.Gen.Pre_finite_inputs
import proofs.«170069_j26749056320134_1_alg».proof.Proof.KernelArray
import proofs.«170069_j26749056320134_1_alg».proof.Proof.RefRun
import proofs.«170069_j26749056320134_1_alg».proof.Proof.RefValue
import proofs.«170069_j26749056320134_1_alg».proof.Proof.LogSoftmaxShift
import proofs.«170069_j26749056320134_1_alg».proof.Proof.FiniteInputs
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The one rewrite of the idealization: the mask fill of the 24 extra class lanes is named `-∞`. -/
theorem preserves : Cert.preserves_Kernel_KernelIdeal :=
  IdealRules.named_const.statement Cert.KernelIdeal.κ "neg_big" .f32 0xFF333332#32 ⊥ rfl

/-- From arguments that agree and are finite, the kernel ends with `lossK` of them and the reference with `lossR` of
    them: one extended real. -/
theorem algebraic : Cert.algebraic_KernelIdeal_ReferenceIdeal := by
  intro m ρ m' ρ' hpre hagree
  refine ⟨fun c => fun _ => Cert.CodingLoss.lossK
      (fun b d => Cert.KernelIdeal.Value.argX m c (ix2 b d)) (fun b => Cert.KernelIdeal.Value.argL m c (ix1 b))
      (fun n d => Cert.KernelIdeal.Value.argC m c (ix2 n d)),
    Cert.KernelIdeal.Value.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2, Cert.ReferenceIdeal.RefValue.val_eq_lossR]
  obtain ⟨hX, hC⟩ := Cert.FiniteInputs.real_of_pre _ _ _ (hpre c)
  exact funext fun _ => (Cert.CodingLoss.lossK_eq_lossR _ _ _ (fun b d => hX (ix2 b d)) (fun n d => hC (ix2 n d))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
